-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg10 : FVec F S128x128 .f32) (main_arg11 : FVec F S128 .f32) (main_arg12 : FVec F S128x1 .f32) (main_arg13 : FVec F S1 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg12
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x128 .f32) (main_arg1 : IVec S1600000 32) (main_arg2 : IVec S1600000 32) (main_arg3 : IVec S100000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1600000x1 : Shape := ⟨2, ![1600000, 1]⟩
abbrev S100000x1 : Shape := ⟨2, ![100000, 1]⟩
abbrev S100000x2 : Shape := ⟨2, ![100000, 2]⟩
abbrev S1x128 : Shape := ⟨2, ![1, 128]⟩
abbrev S1x1 : Shape := ⟨2, ![1, 1]⟩
abbrev S5000x128 : Shape := ⟨2, ![5000, 128]⟩
abbrev S5000x1 : Shape := ⟨2, ![5000, 1]⟩
abbrev S1600000x128 : Shape := ⟨2, ![1600000, 128]⟩
abbrev S5000x2 : Shape := ⟨2, ![5000, 2]⟩
abbrev S512x128 : Shape := ⟨2, ![512, 128]⟩
abbrev S512x1 : Shape := ⟨2, ![512, 1]⟩

abbrev nBuf : Space → Nat
  | .hbm => 90
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x1, .f32⟩
  | .hbm, ⟨34, _⟩ => ⟨S100000x2, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x1, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S512x128, .f32⟩
  | .hbm, ⟨87, _⟩ => ⟨S100000x1, .i32⟩
  | .hbm, ⟨88, _⟩ => ⟨S512x128, .f32⟩
  | .hbm, ⟨89, _⟩ => ⟨S512x1, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x2, .f32⟩
  | .local _ .vmem, ⟨9, _⟩ => ⟨S5000x2, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x2, .f32⟩
  | .local _ .vmem, ⟨19, _⟩ => ⟨S5000x2, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x1, .f32⟩
  | .local _ .vmem, ⟨29, _⟩ => ⟨S5000x1, .f32⟩
  | .local _ .vmem, ⟨30, _⟩ => ⟨S128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S512x128, .f32⟩
  | .local _ .vmem, ⟨35, _⟩ => ⟨S128x128, .f32⟩
  | .local _ .vmem, ⟨36, _⟩ => ⟨S1x128, .f32⟩
  | .local _ .vmem, ⟨37, _⟩ => ⟨S128x1, .f32⟩
  | .local _ .vmem, ⟨38, _⟩ => ⟨S1x1, .f32⟩
  | .local _ .vmem, ⟨39, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32_0 : Ref sig .tc := ⟨.hbm, 54, rfl⟩
abbrev main_v32_1 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43_0 : Ref sig .tc := ⟨.hbm, 69, rfl⟩
abbrev main_v43_1 : Ref sig .tc := ⟨.hbm, 70, rfl⟩
abbrev main_c_9 : Ref sig .tc := ⟨.hbm, 71, rfl⟩
abbrev main_v44 : Ref sig .tc := ⟨.hbm, 72, rfl⟩
abbrev main_v45 : Ref sig .tc := ⟨.hbm, 73, rfl⟩
abbrev main_c_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_12 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem1_0 : DmaSem sig := 35
abbrev cc4_sem2_0 : DmaSem sig := 36
abbrev cc4_sem3_0 : DmaSem sig := 37
abbrev cc4_sem4_0 : DmaSem sig := 38
abbrev cc4_sem5_0 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  concatenates_S100000x1_S100000x1_S100000x2_d1 : Shape.Concatenates [S100000x1, S100000x1] S100000x2 1
  shapeCasts_S128_S1x128 : S128.ShapeCasts S1x128
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S100000_S100000x1_0 : S100000.BroadcastsInDim S100000x1 (![0] : Fin 1 → Fin S100000x1.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S100000x2.size a
  hwx1_1 : ∀ i : grid1.Coords, EltTy.bits .f32 = 32 ∨ (Rect.block (s := S100000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x2.size a ≤ S100000x2.size a
  hwx2_1 : ∀ i : grid2.Coords, EltTy.bits .f32 = 32 ∨ (Rect.block (s := S100000x2) S5000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x1.size a ≤ S128x1.size a
  hwx4_3 : ∀ i : grid4.Coords, EltTy.bits .f32 = 32 ∨ (Rect.block (s := S128x1) S128x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x1.size a ≤ S512x1.size a
  hwx4_5 : ∀ i : grid4.Coords, EltTy.bits .f32 = 32 ∨ (Rect.block (s := S512x1) S512x1.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v32_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v43_1) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v18) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v57) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v19) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S128x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v20) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v58) S512x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S512x128 : Shape := ⟨2, ![512, 128]⟩
abbrev S512x1 : Shape := ⟨2, ![512, 1]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S100000x1, .f32⟩
  | .hbm, ⟨101, _⟩ => ⟨S100000x128, .f32⟩
  | .hbm, ⟨102, _⟩ => ⟨S100000x128, .f32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S100000x128, .f32⟩
  | .hbm, ⟨107, _⟩ => ⟨S_, .f32⟩
  | .hbm, ⟨108, _⟩ => ⟨S100000x128, .f32⟩
  | .hbm, ⟨109, _⟩ => ⟨S100000x128, .f32⟩
  | .hbm, ⟨110, _⟩ => ⟨S_, .f32⟩
  | .hbm, ⟨111, _⟩ => ⟨S512x128, .f32⟩
  | .hbm, ⟨112, _⟩ => ⟨S100000x1, .i32⟩
  | .hbm, ⟨113, _⟩ => ⟨S512x128, .f32⟩
  | .hbm, ⟨114, _⟩ => ⟨S512x128, .f32⟩
  | .hbm, ⟨115, _⟩ => ⟨S1x128, .f32⟩
  | .hbm, ⟨116, _⟩ => ⟨S512x128, .f32⟩
  | .hbm, ⟨117, _⟩ => ⟨S512x128, .f32⟩
  | .hbm, ⟨118, _⟩ => ⟨S_, .f32⟩
  | .hbm, ⟨119, _⟩ => ⟨S512x128, .f32⟩
  | .hbm, ⟨120, _⟩ => ⟨S512x128, .f32⟩
  | .hbm, ⟨121, _⟩ => ⟨S512x1, .f32⟩
  | .hbm, ⟨122, _⟩ => ⟨S1x1, .f32⟩
  | .hbm, ⟨123, _⟩ => ⟨S512x1, .f32⟩
  | .hbm, ⟨124, _⟩ => ⟨S512x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call0_cst : Ref sig .tc := ⟨.hbm, 55, rfl⟩
abbrev main_call0_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_6 : Ref sig .tc := ⟨.hbm, 61, rfl⟩
abbrev main_v37 : Ref sig .tc := ⟨.hbm, 62, rfl⟩
abbrev main_v38 : Ref sig .tc := ⟨.hbm, 63, rfl⟩
abbrev main_c_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_cst : Ref sig .tc := ⟨.hbm, 81, rfl⟩
abbrev main_call1_v0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_9 : Ref sig .tc := ⟨.hbm, 87, rfl⟩
abbrev main_v58 : Ref sig .tc := ⟨.hbm, 88, rfl⟩
abbrev main_v59 : Ref sig .tc := ⟨.hbm, 89, rfl⟩
abbrev main_c_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call2_cst : Ref sig .tc := ⟨.hbm, 107, rfl⟩
abbrev main_call2_v0 : Ref sig .tc := ⟨.hbm, 108, rfl⟩
abbrev main_v75 : Ref sig .tc := ⟨.hbm, 109, rfl⟩
abbrev main_cst_12 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call3_cst : Ref sig .tc := ⟨.hbm, 118, rfl⟩
abbrev main_call3_v0 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KeptRun.lean ====
/-
  The idealized kernel program's run with every buffer's final contents kept.

  @main is ten segments: five stretches of host operations and five kernel regions.  The contents of the
  TensorCore's buffers at each boundary form a chain `W0, W1, …, W10` (a stretch applies its operations, a
  region replaces its arrays by what its write-backs leave).  Every weakly fair execution terminates, and in
  the final state every buffer that is not scoped to a region holds what `W10` says: this is the statement the
  value of the result is read from, the result's buffer being one of them.
-/
import proofs.«177687_j66846870995328_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is known of a final memory on core `c`: every unscoped buffer at the last boundary's contents. -/
def AtLast (c : Dev nD) (s : MemSt nD τ sig (Elt F)) : Prop :=
  ∀ b ∈ Pipeline.ucRefs τ sig, s.mem (((c : Thread nD τ)).1, b) = W10 m ρ c b

/-- The last thread state read against a final state: the state's memory holds the last boundary's contents. -/
theorem last_state (c : Dev nD) (s' : Phys nD τ sig (Elt F)) :
    iprop(Tₙ m ρ c ∗ SI s') ⊢ |={Set.univ}=> iprop(⌜AtLast m ρ c s'.mem⌝ ∗ SI s') := by
  unfold AtLast
  iintro ⟨⟨Hbufs, -⟩, HSI⟩
  unfold StableHlo.held
  imodintro
  iapply (pointsTo_read_all (Pipeline.ucRefs τ sig) (fun b => (((c : Thread nD τ)).1, b)) (W10 m ρ c) s')
  isplitl [Hbufs] <;> iassumption

set_option backward.isDefEq.respectTransparency.types false in
/-- Every weakly fair execution of @main terminates, nothing faulting, with every unscoped buffer of every core at
    the last boundary's contents. -/
theorem run : θ_run defs (onTc (τ := τ) (main (F := F))) ⟨m, fun _ => 0, ρ⟩ (fun r => ∀ c : Dev nD, AtLast m ρ c r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost element is the pipelines' own; no further ghost state is dealt
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by
            rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      -- the first thread state: what the launch deals to a core holds its unscoped buffers at the launch memory,
      -- its generator register, and an empty debt
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hbufs, -, Hdebt, -, Hreg, -⟩, -⟩
      imodintro
      isplitl [Hbufs]
      · iexact Hbufs
      isplitl [Hreg]
      · iexists _; iexact Hreg
      · iexists ∅; iexact Hdebt)
    (QY := AtLast m ρ)
    (hfin := last_state m ρ)
    (hQ := fun s h => h)

end Cert.KernelIdeal.Kept

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.NetSpec.lean ====
/-
  A three-layer graph convolution with a sum readout and a two-layer head, as functions of arrays on the
  extended reals, index by index.

  One convolution layer takes the aggregated features `agg` (one row per node), scales row r by the node's
  in-degree factor d r, multiplies by the weight matrix, adds the bias along every row and rectifies:
  `layer agg d w b (r, c) = max (Σ k, (agg (r, k) · d r) · w (k, c) + b c) 0`.  What is sent along the edges
  is a layer's result with row r scaled by the node's out-degree factor (`scaleRows`).  The head is two
  affine maps with a rectifier between them.  The degree factors, the aggregation over the edges and the
  readout over the graphs are the same array operations in both programs compared here, so the network is
  stated over them as parameters (`dout`, `din`, `aggr`, `pool`) and they are never opened.

  Everything a row of a result depends on lies in the same row of the operands: `rows_*` say that a block
  of rows of a result is the same function of that block of rows of the operands.
-/
import Idealize.ShloMosaic.PureOps.Ideal.Laws
import Idealize.ShloMosaic.Lib.ValueIdx
import proofs.«177687_j66846870995328_1_alg».proof.Proof.LibPlainDot

noncomputable section

namespace Cert.GraphNet

open Idealize.ShloMosaic Idealize.ShloMosaic.ValueIdx Cert.Lib.PlainDot
open scoped BigOperators

/-- An `[n, c]` array of extended reals. -/
abbrev Mat (n c : Nat) : Type := (⟨2, ![n, c]⟩ : Shape).Idx → EReal
/-- An `[n]` array of extended reals. -/
abbrev Vct (n : Nat) : Type := (⟨1, ![n]⟩ : Shape).Idx → EReal

variable {n k c e nb : Nat}

/-- The row of a matrix index. -/
abbrev rowOf (j : (⟨2, ![n, c]⟩ : Shape).Idx) : Fin n := ⟨(j 0).val, idx2_lt0 j⟩
/-- The column of a matrix index. -/
abbrev colOf (j : (⟨2, ![n, c]⟩ : Shape).Idx) : Fin c := ⟨(j 1).val, idx2_lt1 j⟩

/-- The value the rectifier compares with: the word of `0.0`. -/
def zeroWord : EReal := Ideal.ofBits .f32 0x00000000#32

/-- Row r of `x` times the number `d r`. -/
def scaleRows (x : Mat n c) (d : Vct n) : Mat n c := fun j => x j * d (ix1 (rowOf j))
/-- `a · w` plus the bias `b` along every row. -/
def affine (a : Mat n k) (w : Mat k c) (b : Vct c) : Mat n c := fun j => mm a w j + b (ix1 (colOf j))
/-- The rectifier, entry by entry. -/
def rect (a : Mat n c) : Mat n c := fun j => max (a j) zeroWord
/-- One convolution layer after the aggregation. -/
def layer (agg : Mat n k) (d : Vct n) (w : Mat k c) (b : Vct c) : Mat n c := rect (affine (scaleRows agg d) w b)
/-- The two-layer head. -/
def head (g : Mat n k) (w1 : Mat k c) (b1 : Vct c) (w2 : Mat c e) (b2 : Vct e) : Mat n e :=
  affine (rect (affine g w1 b1)) w2 b2

/-- Column `o` of a matrix, as a vector. -/
def colv (o : Fin c) (X : Mat n c) : Vct n := fun i => X (ix2 (i 0) o)
/-- The one row of a `[1, c]` matrix, as a vector. -/
def rowv (B : Mat 1 c) : Vct c := fun i => B (ix2 (0 : Fin 1) (i 0))

/-- The whole network over the shared array operations: `dout`, `din` the degree factors, `aggr` the sum over
    the edges into each node of the source node's row, `pool` the sum of the nodes' rows per graph. -/
def net {N G : Nat} (dout din : Vct N) (aggr : Mat N 128 → Mat N 128) (pool : Mat N 128 → Mat G 128)
    (x : Mat N 128) (w0 : Mat 128 128) (b0 : Vct 128) (w1 : Mat 128 128) (b1 : Vct 128) (w2 : Mat 128 128) (b2 : Vct 128)
    (wm1 : Mat 128 128) (bm1 : Vct 128) (wm2 : Mat 128 1) (bm2 : Vct 1) : Mat G 1 :=
  head (pool (layer (aggr (scaleRows (layer (aggr (scaleRows (layer (aggr (scaleRows x dout)) din w0 b0) dout)) din w1 b1) dout))
    din w2 b2)) wm1 bm1 wm2 bm2

/-! ## Blocks of rows -/

/-- The rows `ρ 0, ρ 1, …` of a matrix. -/
def rowsOf (ρ : Fin nb → Fin n) (X : Mat n c) : Mat nb c := fun y => X (ix2 (ρ (rowOf y)) (colOf y))
/-- The entries `ρ 0, ρ 1, …` of a vector. -/
def entriesOf (ρ : Fin nb → Fin n) (d : Vct n) : Vct nb := fun i => d (ix1 (ρ ⟨(i 0).val, (i 0).isLt⟩))

theorem rows_scaleRows (ρ : Fin nb → Fin n) (x : Mat n c) (d : Vct n) :
    scaleRows (rowsOf ρ x) (entriesOf ρ d) = rowsOf ρ (scaleRows x d) := rfl

theorem rows_mm (ρ : Fin nb → Fin n) (a : Mat n k) (w : Mat k c) : mm (rowsOf ρ a) w = rowsOf ρ (mm a w) := by
  funext y
  unfold mm rowsOf
  refine Finset.sum_congr rfl fun q _ => ?_
  have e1 : (ix2 (ρ (rowOf (rowIdx y q))) (colOf (rowIdx y q)) : (⟨2, ![n, k]⟩ : Shape).Idx)
      = rowIdx (ix2 (ρ (rowOf y)) (colOf y) : (⟨2, ![n, c]⟩ : Shape).Idx) q :=
    funext fun a => by match a with | ⟨0, _⟩ => rfl | ⟨1, _⟩ => rfl
  have e2 : (colIdx y q : (⟨2, ![k, c]⟩ : Shape).Idx)
      = colIdx (ix2 (ρ (rowOf y)) (colOf y) : (⟨2, ![n, c]⟩ : Shape).Idx) q :=
    funext fun a => by match a with | ⟨0, _⟩ => rfl | ⟨1, _⟩ => rfl
  rw [e1, e2]

theorem rows_affine (ρ : Fin nb → Fin n) (a : Mat n k) (w : Mat k c) (b : Vct c) :
    affine (rowsOf ρ a) w b = rowsOf ρ (affine a w b) := by
  funext y
  show mm (rowsOf ρ a) w y + _ = _
  rw [rows_mm]; rfl

theorem rows_rect (ρ : Fin nb → Fin n) (a : Mat n c) : rect (rowsOf ρ a) = rowsOf ρ (rect a) := rfl

theorem rows_layer (ρ : Fin nb → Fin n) (agg : Mat n k) (d : Vct n) (w : Mat k c) (b : Vct c) :
    layer (rowsOf ρ agg) (entriesOf ρ d) w b = rowsOf ρ (layer agg d w b) := by
  unfold layer; rw [rows_scaleRows, rows_affine, rows_rect]

theorem colv_rows (ρ : Fin nb → Fin n) (o : Fin c) (X : Mat n c) : colv o (rowsOf ρ X) = entriesOf ρ (colv o X) := rfl

end Cert.GraphNet

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.Layout.lean ====
/-
  Vectors laid out as columns, rows and a two-column array, read back.

  A vector cast to a column, or to a row, has the vector as its one column, or row; two columns set side by
  side have the first as column 0 and the second as column 1.
-/
import proofs.«177687_j66846870995328_1_alg».proof.Proof.NetSpec
import proofs.«177687_j66846870995328_1_alg».proof.Proof.LibRowLayout
import Idealize.ShloMosaic.Lib.Pipeline.Value
import Idealize.ShloMosaic.Lib.ValueLayout

noncomputable section

namespace Cert.GraphNet

open Idealize.ShloMosaic Idealize.ShloMosaic.ValueIdx Cert.KernelIdeal.MvnKernel

variable {n c : Nat}

/-- The one column of a vector cast to a column is the vector. -/
theorem colv_cast (d : Vct n) (h : (⟨1, ![n]⟩ : Shape).ShapeCasts ⟨2, ![n, 1]⟩) :
    colv (0 : Fin 1) (shapeCast ⟨2, ![n, 1]⟩ d h : Mat n 1) = d := by
  funext i
  obtain ⟨a, rfl⟩ : ∃ a : Fin n, i = ix1 a := ⟨i 0, eq_ix1 i⟩
  exact shapeCast_a_a1_apply d h a 0

/-- The one row of a vector cast to a row is the vector. -/
theorem rowv_cast (b : Vct c) (h : (⟨1, ![c]⟩ : Shape).ShapeCasts ⟨2, ![1, c]⟩) :
    rowv (shapeCast ⟨2, ![1, c]⟩ b h : Mat 1 c) = b := by
  funext i
  obtain ⟨a, rfl⟩ : ∃ a : Fin c, i = ix1 a := ⟨i 0, eq_ix1 i⟩
  exact shapeCast_a_1a_apply b h 0 a

/-- Column 0 of two columns side by side is the first. -/
theorem colv0_pair (x y : Mat n 1)
    (h : Shape.Concatenates [(⟨2, ![n, 1]⟩ : Shape), ⟨2, ![n, 1]⟩] ⟨2, ![n, 2]⟩ (1 : Fin 2)) :
    colv (0 : Fin 2) (concatenate ⟨2, ![n, 2]⟩ (1 : Fin 2) [⟨⟨2, ![n, 1]⟩, x⟩, ⟨⟨2, ![n, 1]⟩, y⟩] h : Mat n 2) = colv (0 : Fin 1) x := by
  funext i
  obtain ⟨a, rfl⟩ : ∃ a : Fin n, i = ix1 a := ⟨i 0, eq_ix1 i⟩
  show concatenate ⟨2, ![n, 2]⟩ (1 : Fin 2) [⟨⟨2, ![n, 1]⟩, x⟩, ⟨⟨2, ![n, 1]⟩, y⟩] h (ix2 a (0 : Fin 2)) = x (ix2 a (0 : Fin 1))
  refine concatenate_pair_apply_left (1 : Fin 2) x y h (ix2 a (0 : Fin 2)) rfl (ix2 a (0 : Fin 1)) fun b => ?_
  match b with
  | ⟨0, _⟩ => rfl
  | ⟨1, _⟩ => rfl

/-- Column 1 of two columns side by side is the second. -/
theorem colv1_pair (x y : Mat n 1)
    (h : Shape.Concatenates [(⟨2, ![n, 1]⟩ : Shape), ⟨2, ![n, 1]⟩] ⟨2, ![n, 2]⟩ (1 : Fin 2)) :
    colv (1 : Fin 2) (concatenate ⟨2, ![n, 2]⟩ (1 : Fin 2) [⟨⟨2, ![n, 1]⟩, x⟩, ⟨⟨2, ![n, 1]⟩, y⟩] h : Mat n 2) = colv (0 : Fin 1) y := by
  funext i
  obtain ⟨a, rfl⟩ : ∃ a : Fin n, i = ix1 a := ⟨i 0, eq_ix1 i⟩
  show concatenate ⟨2, ![n, 2]⟩ (1 : Fin 2) [⟨⟨2, ![n, 1]⟩, x⟩, ⟨⟨2, ![n, 1]⟩, y⟩] h (ix2 a (1 : Fin 2)) = y (ix2 a (0 : Fin 1))
  refine concatenate_pair_apply_right (1 : Fin 2) x y h (ix2 a (1 : Fin 2)) rfl rfl (ix2 a (0 : Fin 1)) (fun b hb => ?_) rfl
  match b with
  | ⟨0, _⟩ => rfl
  | ⟨1, _⟩ => exact absurd rfl hb

end Cert.GraphNet

end
-- ==== Proof.ScaleIn.lean ====
/-
  The first region: the input features with every row scaled by its node's out-degree factor.

  The region walks 20 blocks of 5000 rows; at block t it reads rows 5000·t … 5000·t + 4999 of the features and
  of the one-column array of factors and writes the same rows of the product.  Each block written is that block
  of rows of one function of the whole arrays, and the twenty blocks cover the array.
-/
import proofs.«177687_j66846870995328_1_alg».proof.Proof.Gen.KernelIdeal.Frame
import proofs.«177687_j66846870995328_1_alg».proof.Proof.NetSpec
import proofs.«177687_j66846870995328_1_alg».proof.Proof.LibRowLayout
import Idealize.ShloMosaic.Lib.Pipeline.Value
import Idealize.ShloMosaic.Lib.ValueLayout

set_option maxRecDepth 16384

noncomputable section

namespace Cert.KernelIdeal.ScaleIn

open Cert.KernelIdeal Cert.KernelIdeal.Gen Cert.GraphNet Cert.Lib.PlainDot Cert.KernelIdeal.MvnKernel
open Idealize.ShloMosaic Idealize.ShloMosaic.ValueIdx Idealize.ShloMosaic.TcCoe
open Idealize.ShloMosaic.Pipeline (Dat Cfg Window)

/-- The stored value: the block of features with row r scaled by the block of factors at row r. -/
theorem pay_s (x0 : Vec Ideal S5000x128 .f32) (x1 : Vec Ideal S5000x1 .f32) :
    (k0_pay1 x0 x1 : Mat 5000 128) = scaleRows x0 (colv (0 : Fin 1) x1) := by
  funext j
  obtain ⟨p, q, rfl⟩ : ∃ (p : Fin 5000) (q : Fin 128), j = ix2 p q := ⟨j 0, j 1, eq_ix2 j⟩
  unfold k0_pay1
  rw [mulf_apply, broadcastTo_a1_ab_apply, shapeCast_self]
  rfl

section
variable (V : (c : Dev nD) → (b : Ref sig .tc) → Buf (Elt Ideal) ((c : Thread nD τ).loc b))

theorem pt_lt (t : Fin cfg0.N) : t.val < 20 := lt_of_lt_of_eq t.isLt N_0

/-- Row p of block t is row 5000·t + p of the array. -/
def rowAt (t : Fin cfg0.N) (p : Fin 5000) : Fin 100000 :=
  ⟨t.val * 5000 + p.val, by have := pt_lt t; have := p.isLt; omega⟩

theorem hz : (![0, 0] : Fin 2 → Nat) = fun _ => 0 := funext fun a => by fin_cases a <;> rfl

/-- The printed index maps over the grid: every window sits at block (t, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The features' block at point t is rows 5000·t … of their array. -/
theorem blk_feat (c : Dev nD) (t : Fin cfg0.N) :
    (iblk0 V c 0 t : Mat 5000 128) = rowsOf (rowAt t) (V c main_arg0) := by
  obtain ⟨e0, e1, -⟩ := index_facts t
  funext y
  show V c main_arg0 (((cfg0.win 0).blk t).view.emb y) = V c main_arg0 (ix2 (rowAt t (rowOf y)) (colOf y))
  refine congrArg _ (funext fun a => Fin.ext ?_)
  match a with
  | ⟨0, _⟩ => show win0_0.index t (0 : Fin 2) * 5000 + 1 * (y 0).val = t.val * 5000 + (y 0).val; omega
  | ⟨1, _⟩ => show win0_0.index t (1 : Fin 2) * 128 + 1 * (y 1).val = (y 1).val; omega

/-- The factors' block at point t is rows 5000·t … of their one-column array. -/
theorem blk_fact (c : Dev nD) (t : Fin cfg0.N) :
    (iblk0 V c 1 t : Mat 5000 1) = rowsOf (rowAt t) (V c main_v13) := by
  obtain ⟨-, -, e0, e1, -⟩ := index_facts t
  funext y
  show V c main_v13 (((cfg0.win 1).blk t).view.emb y) = V c main_v13 (ix2 (rowAt t (rowOf y)) (colOf y))
  refine congrArg _ (funext fun a => Fin.ext ?_)
  match a with
  | ⟨0, _⟩ => show win0_1.index t (0 : Fin 2) * 5000 + 1 * (y 0).val = t.val * 5000 + (y 0).val; omega
  | ⟨1, _⟩ => show win0_1.index t (1 : Fin 2) * 1 + 1 * (y 1).val = (y 1).val; omega

/-- The scaled features over the whole arrays the region finds. -/
def sOf (c : Dev nD) : Mat 100000 128 := scaleRows (V c main_arg0) (colv (0 : Fin 1) (V c main_v13))

/-- A block of rows of the result array, read through the result window's block at point t. -/
theorem read_rows2 (G : Mat 100000 128) (t : Fin cfg0.N) :
    (((cfg0.win 2).blk t).view.read (Elt Ideal) G : Mat 5000 128) = rowsOf (rowAt t) G := by
  obtain ⟨-, -, -, -, e0, e1⟩ := index_facts t
  funext y
  show G (((cfg0.win 2).blk t).view.emb y) = G (ix2 (rowAt t (rowOf y)) (colOf y))
  refine congrArg _ (funext fun a => Fin.ext ?_)
  match a with
  | ⟨0, _⟩ => show win0_2.index t (0 : Fin 2) * 5000 + 1 * (y 0).val = t.val * 5000 + (y 0).val; omega
  | ⟨1, _⟩ => show win0_2.index t (1 : Fin 2) * 128 + 1 * (y 1).val = (y 1).val; omega

/-- What point t writes back is block t of the scaled features. -/
theorem flushed2 (c : Dev nD) (t : Fin cfg0.N) :
    (dat0 V c).flushed 2 t = ((cfg0.win 2).blk t).view.read (Elt Ideal) (sOf V c) := by
  show (cfg0.win 2).cut (grid0.coords t) ((dat0 V c).after 2 t) = _
  rw [after0_2]
  unfold out0_2
  rw [View.canon_unit_zero hz]
  simp only [View.ld_unit_zero (S := S5000x1) hz, View.ld_unit_zero (S := S5000x128) hz]
  refine Eq.trans ?_ (read_rows2 (sOf V c) t).symm
  refine (pay_s (iblk0 V c 0 t) (iblk0 V c 1 t)).trans ?_
  show scaleRows (iblk0 V c 0 t : Mat 5000 128) (colv (0 : Fin 1) (iblk0 V c 1 t : Mat 5000 1)) = _
  rw [blk_feat, blk_fact, colv_rows, rows_scaleRows]
  rfl

/-- An index of the result array lies in point t's block iff each coordinate is in the block's range. -/
theorem mem_blk2 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v21).slice (win0_2.rect t)).set ↔ _
  rw [View.set_slice_whole, Rect.mem_set_unit]
  exact Iff.rfl

/-- Row r lies in the block of point r / 5000. -/
theorem cover2 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, lt_of_lt_of_eq (by omega : (i 0).val / 5000 < 20) N_0.symm⟩
  obtain ⟨-, -, -, -, e0, e1⟩ := index_facts t
  have e0' : win0_2.index t (0 : Fin 2) = (i 0).val / 5000 := e0
  refine ⟨t, flush0_2 t, ?_⟩
  rw [mem_blk2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE RESULT when the region is left: the features it found with their rows scaled. -/
theorem final2 (c : Dev nD) : (dat0 V c).arrAt 2 cfg0.N = sOf V c :=
  (dat0 V c).arrAt_eq_of_cover 2 (sOf V c) (fun t _ => flushed2 V c t) cover2

end

end Cert.KernelIdeal.ScaleIn

end
-- ==== Proof.ConvA.lean ====
/-
  The first convolution region: what its two result arrays hold when it is left.

  The region walks 20 blocks of 5000 rows.  At block t it reads rows 5000·t … 5000·t + 4999 of the aggregated
  features and of the two-column array of degree factors, the whole weight matrix and the one-row bias, and writes
  the same rows of two results: the layer's value `h` (the rows scaled by the first column, times the weights, plus
  the bias, rectified) and `h` with its rows scaled by the second column.  Every row of a result depends only on the
  same row of the operands, so each block written is that block of rows of one function of the whole arrays, and
  the twenty blocks cover the array.
-/
import proofs.«177687_j66846870995328_1_alg».proof.Proof.Gen.KernelIdeal.Frame
import proofs.«177687_j66846870995328_1_alg».proof.Proof.NetSpec
import proofs.«177687_j66846870995328_1_alg».proof.Proof.LibRowLayout
import Idealize.ShloMosaic.Lib.Pipeline.Value
import Idealize.ShloMosaic.Lib.ValueLayout

set_option maxRecDepth 16384

noncomputable section

namespace Cert.KernelIdeal.ConvA

open Cert.KernelIdeal Cert.KernelIdeal.Gen Cert.GraphNet Cert.Lib.PlainDot Cert.KernelIdeal.MvnKernel
open Idealize.ShloMosaic Idealize.ShloMosaic.ValueIdx Idealize.ShloMosaic.TcCoe
open Idealize.ShloMosaic.Pipeline (Dat Cfg Window)

/-! ## The body's arithmetic on one block -/

/-- The block of features with row r scaled by the first column of the block of factors. -/
theorem scaled_in (x0 : Vec Ideal S5000x128 .f32) (x1 : Vec Ideal S5000x2 .f32) :
    (mulf (F := Ideal) (φ := .f32) (shapeCast S5000x128 x0 shapeCasts_S5000x128_S5000x128)
      (broadcastTo S5000x128 (extractStridedSlice S5000x1 ![0, 0] (shapeCast S5000x2 x1 shapeCasts_S5000x2_S5000x2)
        slices_S5000x2_o0_0_S5000x1) broadcasts_S5000x1_S5000x128) : Mat 5000 128)
      = scaleRows x0 (colv (0 : Fin 2) x1) := by
  simp only [shapeCast_self]
  funext j
  obtain ⟨p, q, rfl⟩ : ∃ (p : Fin 5000) (q : Fin 128), j = ix2 p q := ⟨j 0, j 1, eq_ix2 j⟩
  rw [mulf_apply, broadcastTo_a1_ab_apply, sliceCol_apply]
  rfl

/-- The first stored value is the layer's function of the four blocks. -/
theorem pay_h (x1 : Vec Ideal S5000x2 .f32) (x0 : Vec Ideal S5000x128 .f32) (x2 : Vec Ideal S128x128 .f32)
    (x3 : Vec Ideal S1x128 .f32) :
    k1_pay2 x1 x0 x2 x3 = layer (n := 5000) (k := 128) (c := 128) x0 (colv (0 : Fin 2) x1) x2 (rowv x3) := by
  funext j
  obtain ⟨p, q, rfl⟩ : ∃ (p : Fin 5000) (q : Fin 128), j = ix2 p q := ⟨j 0, j 1, eq_ix2 j⟩
  unfold k1_pay2 k1_pay1
  dsimp only
  rw [maximumf_apply, addf_apply, broadcast_apply, broadcastTo_1b_ab_apply]
  refine congrArg₂ max (congrArg₂ (· + ·) ?_ ?_) rfl
  · refine (matmul_zero_apply dot_S5000x128_S128x128_S5000x128_1_0_0_1_n_n rfl none _ _ (ix2 p q)).trans ?_
    exact congrArg (fun a => mm a x2 (ix2 p q)) (scaled_in x0 x1)
  · rw [shapeCast_self]; rfl

/-- The second stored value is the first with row r scaled by the second column of the block of factors. -/
theorem pay_s (x1 : Vec Ideal S5000x2 .f32) (x0 : Vec Ideal S5000x128 .f32) (x2 : Vec Ideal S128x128 .f32)
    (x3 : Vec Ideal S1x128 .f32) :
    k1_pay3 x1 x0 x2 x3
      = scaleRows (layer (n := 5000) (k := 128) (c := 128) x0 (colv (0 : Fin 2) x1) x2 (rowv x3)) (colv (1 : Fin 2) x1) := by
  funext j
  obtain ⟨p, q, rfl⟩ : ∃ (p : Fin 5000) (q : Fin 128), j = ix2 p q := ⟨j 0, j 1, eq_ix2 j⟩
  unfold k1_pay3 k1_pay1
  dsimp only
  rw [mulf_apply, broadcastTo_a1_ab_apply, sliceCol_apply, shapeCast_self, pay_h]
  rfl

/-! ## The blocks the region reads, as rows of its arrays -/

section
variable (V : (c : Dev nD) → (b : Ref sig .tc) → Buf (Elt Ideal) ((c : Thread nD τ).loc b))

theorem pt_lt (t : Fin cfg1.N) : t.val < 20 := lt_of_lt_of_eq t.isLt N_1

/-- Row p of block t is row 5000·t + p of the array. -/
def rowAt (t : Fin cfg1.N) (p : Fin 5000) : Fin 100000 :=
  ⟨t.val * 5000 + p.val, by have := pt_lt t; have := p.isLt; omega⟩

theorem hz : (![0, 0] : Fin 2 → Nat) = fun _ => 0 := funext fun a => by fin_cases a <;> rfl

/-- The printed index maps over the grid: a row-blocked window sits at block (t, 0), a whole-array window at (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The features' block at point t is rows 5000·t … of their array. -/
theorem blk_feat (c : Dev nD) (t : Fin cfg1.N) :
    (iblk1 V c 0 t : Mat 5000 128) = rowsOf (rowAt t) (V c main_v31) := by
  obtain ⟨e0, e1, -⟩ := index_facts t
  funext y
  show V c main_v31 (((cfg1.win 0).blk t).view.emb y) = V c main_v31 (ix2 (rowAt t (rowOf y)) (colOf y))
  refine congrArg _ (funext fun a => Fin.ext ?_)
  match a with
  | ⟨0, _⟩ => show win1_0.index t (0 : Fin 2) * 5000 + 1 * (y 0).val = t.val * 5000 + (y 0).val; omega
  | ⟨1, _⟩ => show win1_0.index t (1 : Fin 2) * 128 + 1 * (y 1).val = (y 1).val; omega

/-- The factors' block at point t is rows 5000·t … of their two-column array. -/
theorem blk_fact (c : Dev nD) (t : Fin cfg1.N) :
    (iblk1 V c 1 t : Mat 5000 2) = rowsOf (rowAt t) (V c main_v15) := by
  obtain ⟨-, -, e0, e1, -⟩ := index_facts t
  funext y
  show V c main_v15 (((cfg1.win 1).blk t).view.emb y) = V c main_v15 (ix2 (rowAt t (rowOf y)) (colOf y))
  refine congrArg _ (funext fun a => Fin.ext ?_)
  match a with
  | ⟨0, _⟩ => show win1_1.index t (0 : Fin 2) * 5000 + 1 * (y 0).val = t.val * 5000 + (y 0).val; omega
  | ⟨1, _⟩ => show win1_1.index t (1 : Fin 2) * 2 + 1 * (y 1).val = (y 1).val; omega

/-- The weights' block at every point is their whole array. -/
theorem blk_w (c : Dev nD) (t : Fin cfg1.N) : (iblk1 V c 2 t : Mat 128 128) = V c main_arg4 := by
  obtain ⟨-, -, -, -, e0, e1, -⟩ := index_facts t
  funext y
  show V c main_arg4 (((cfg1.win 2).blk t).view.emb y) = V c main_arg4 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias's block at every point is its whole one-row array. -/
theorem blk_b (c : Dev nD) (t : Fin cfg1.N) : (iblk1 V c 3 t : Mat 1 128) = V c main_v16 := by
  obtain ⟨-, -, -, -, -, -, e0, e1, -⟩ := index_facts t
  funext y
  show V c main_v16 (((cfg1.win 3).blk t).view.emb y) = V c main_v16 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-! ## The two results -/

/-- The layer's value over the whole arrays the region finds. -/
def hOf (c : Dev nD) : Mat 100000 128 :=
  layer (V c main_v31) (colv (0 : Fin 2) (V c main_v15)) (V c main_arg4) (rowv (V c main_v16))
/-- The same with row r scaled by the second factor: what is sent along the edges next. -/
def sOf (c : Dev nD) : Mat 100000 128 := scaleRows (hOf V c) (colv (1 : Fin 2) (V c main_v15))

/-- A block of rows of a result array, read through the result window's block at point t. -/
theorem read_rows4 (G : Mat 100000 128) (t : Fin cfg1.N) :
    (((cfg1.win 4).blk t).view.read (Elt Ideal) G : Mat 5000 128) = rowsOf (rowAt t) G := by
  obtain ⟨-, -, -, -, -, -, -, -, e0, e1, -⟩ := index_facts t
  funext y
  show G (((cfg1.win 4).blk t).view.emb y) = G (ix2 (rowAt t (rowOf y)) (colOf y))
  refine congrArg _ (funext fun a => Fin.ext ?_)
  match a with
  | ⟨0, _⟩ => show win1_4.index t (0 : Fin 2) * 5000 + 1 * (y 0).val = t.val * 5000 + (y 0).val; omega
  | ⟨1, _⟩ => show win1_4.index t (1 : Fin 2) * 128 + 1 * (y 1).val = (y 1).val; omega

theorem read_rows5 (G : Mat 100000 128) (t : Fin cfg1.N) :
    (((cfg1.win 5).blk t).view.read (Elt Ideal) G : Mat 5000 128) = rowsOf (rowAt t) G := by
  obtain ⟨-, -, -, -, -, -, -, -, -, -, e0, e1⟩ := index_facts t
  funext y
  show G (((cfg1.win 5).blk t).view.emb y) = G (ix2 (rowAt t (rowOf y)) (colOf y))
  refine congrArg _ (funext fun a => Fin.ext ?_)
  match a with
  | ⟨0, _⟩ => show win1_5.index t (0 : Fin 2) * 5000 + 1 * (y 0).val = t.val * 5000 + (y 0).val; omega
  | ⟨1, _⟩ => show win1_5.index t (1 : Fin 2) * 128 + 1 * (y 1).val = (y 1).val; omega

/-- What point t writes back to the first result is block t of the layer's value. -/
theorem flushed4 (c : Dev nD) (t : Fin cfg1.N) :
    (dat1 V c).flushed 4 t = ((cfg1.win 4).blk t).view.read (Elt Ideal) (hOf V c) := by
  show (cfg1.win 4).cut (grid1.coords t) ((dat1 V c).after 4 t) = _
  rw [after1_4]
  unfold out1_4
  rw [View.canon_unit_zero hz]
  simp only [View.ld_unit_zero (S := S5000x2) hz, View.ld_unit_zero (S := S5000x128) hz,
    View.ld_unit_zero (S := S128x128) hz, View.ld_unit_zero (S := S1x128) hz]
  rw [pay_h (iblk1 V c 1 t) (iblk1 V c 0 t) (iblk1 V c 2 t) (iblk1 V c 3 t)]
  refine Eq.trans ?_ (read_rows4 (hOf V c) t).symm
  show layer (iblk1 V c 0 t : Mat 5000 128) (colv (0 : Fin 2) (iblk1 V c 1 t : Mat 5000 2)) (iblk1 V c 2 t : Mat 128 128)
      (rowv (iblk1 V c 3 t : Mat 1 128)) = _
  rw [blk_feat, blk_fact, blk_w, blk_b, colv_rows, rows_layer]
  rfl

/-- What point t writes back to the second result is block t of the scaled value. -/
theorem flushed5 (c : Dev nD) (t : Fin cfg1.N) :
    (dat1 V c).flushed 5 t = ((cfg1.win 5).blk t).view.read (Elt Ideal) (sOf V c) := by
  show (cfg1.win 5).cut (grid1.coords t) ((dat1 V c).after 5 t) = _
  rw [after1_5]
  unfold out1_5
  rw [View.canon_unit_zero hz]
  simp only [View.ld_unit_zero (S := S5000x2) hz, View.ld_unit_zero (S := S5000x128) hz,
    View.ld_unit_zero (S := S128x128) hz, View.ld_unit_zero (S := S1x128) hz]
  rw [pay_s (iblk1 V c 1 t) (iblk1 V c 0 t) (iblk1 V c 2 t) (iblk1 V c 3 t)]
  refine Eq.trans ?_ (read_rows5 (sOf V c) t).symm
  show scaleRows (layer (iblk1 V c 0 t : Mat 5000 128) (colv (0 : Fin 2) (iblk1 V c 1 t : Mat 5000 2)) (iblk1 V c 2 t : Mat 128 128)
      (rowv (iblk1 V c 3 t : Mat 1 128))) (colv (1 : Fin 2) (iblk1 V c 1 t : Mat 5000 2)) = _
  rw [blk_feat, blk_fact, blk_w, blk_b, colv_rows, colv_rows, rows_layer, rows_scaleRows]
  rfl

/-- An index of a result array lies in point t's block iff each coordinate is in the block's range. -/
theorem mem_blk4 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v32_0).slice (win1_4.rect t)).set ↔ _
  rw [View.set_slice_whole, Rect.mem_set_unit]
  exact Iff.rfl

theorem mem_blk5 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v32_1).slice (win1_5.rect t)).set ↔ _
  rw [View.set_slice_whole, Rect.mem_set_unit]
  exact Iff.rfl

/-- Row r lies in the block of point r / 5000. -/
theorem cover4 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  let t : Fin cfg1.N := ⟨(i 0).val / 5000, lt_of_lt_of_eq (by omega : (i 0).val / 5000 < 20) N_1.symm⟩
  obtain ⟨-, -, -, -, -, -, -, -, e0, e1, -⟩ := index_facts t
  have e0' : win1_4.index t (0 : Fin 2) = (i 0).val / 5000 := e0
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

theorem cover5 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 5000, lt_of_lt_of_eq (by omega : (i 0).val / 5000 < 20) N_1.symm⟩
  obtain ⟨-, -, -, -, -, -, -, -, -, -, e0, e1⟩ := index_facts t
  have e0' : win1_5.index t (0 : Fin 2) = (i 0).val / 5000 := e0
  refine ⟨t, flush1_5 t, ?_⟩
  rw [mem_blk5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE FIRST RESULT when the region is left: the layer's value of the arrays it found. -/
theorem final4 (c : Dev nD) : (dat1 V c).arrAt 4 cfg1.N = hOf V c :=
  (dat1 V c).arrAt_eq_of_cover 4 (hOf V c) (fun t _ => flushed4 V c t) cover4

/-- THE SECOND RESULT when the region is left: that value with its rows scaled by the second factor. -/
theorem final5 (c : Dev nD) : (dat1 V c).arrAt 5 cfg1.N = sOf V c :=
  (dat1 V c).arrAt_eq_of_cover 5 (sOf V c) (fun t _ => flushed5 V c t) cover5

end

end Cert.KernelIdeal.ConvA

end
-- ==== Proof.ConvB.lean ====
/-
  The second convolution region: what its two result arrays hold when it is left.

  The region walks 20 blocks of 5000 rows.  At block t it reads rows 5000·t … 5000·t + 4999 of the aggregated
  features and of the two-column array of degree factors, the whole weight matrix and the one-row bias, and writes
  the same rows of two results: the layer's value `h` (the rows scaled by the first column, times the weights, plus
  the bias, rectified) and `h` with its rows scaled by the second column.  Every row of a result depends only on the
  same row of the operands, so each block written is that block of rows of one function of the whole arrays, and
  the twenty blocks cover the array.
-/
import proofs.«177687_j66846870995328_1_alg».proof.Proof.Gen.KernelIdeal.Frame
import proofs.«177687_j66846870995328_1_alg».proof.Proof.NetSpec
import proofs.«177687_j66846870995328_1_alg».proof.Proof.LibRowLayout
import Idealize.ShloMosaic.Lib.Pipeline.Value
import Idealize.ShloMosaic.Lib.ValueLayout

set_option maxRecDepth 16384

noncomputable section

namespace Cert.KernelIdeal.ConvB

open Cert.KernelIdeal Cert.KernelIdeal.Gen Cert.GraphNet Cert.Lib.PlainDot Cert.KernelIdeal.MvnKernel
open Idealize.ShloMosaic Idealize.ShloMosaic.ValueIdx Idealize.ShloMosaic.TcCoe
open Idealize.ShloMosaic.Pipeline (Dat Cfg Window)

/-! ## The body's arithmetic on one block -/

/-- The block of features with row r scaled by the first column of the block of factors. -/
theorem scaled_in (x0 : Vec Ideal S5000x128 .f32) (x1 : Vec Ideal S5000x2 .f32) :
    (mulf (F := Ideal) (φ := .f32) (shapeCast S5000x128 x0 shapeCasts_S5000x128_S5000x128)
      (broadcastTo S5000x128 (extractStridedSlice S5000x1 ![0, 0] (shapeCast S5000x2 x1 shapeCasts_S5000x2_S5000x2)
        slices_S5000x2_o0_0_S5000x1) broadcasts_S5000x1_S5000x128) : Mat 5000 128)
      = scaleRows x0 (colv (0 : Fin 2) x1) := by
  simp only [shapeCast_self]
  funext j
  obtain ⟨p, q, rfl⟩ : ∃ (p : Fin 5000) (q : Fin 128), j = ix2 p q := ⟨j 0, j 1, eq_ix2 j⟩
  rw [mulf_apply, broadcastTo_a1_ab_apply, sliceCol_apply]
  rfl

/-- The first stored value is the layer's function of the four blocks. -/
theorem pay_h (x1 : Vec Ideal S5000x2 .f32) (x0 : Vec Ideal S5000x128 .f32) (x2 : Vec Ideal S128x128 .f32)
    (x3 : Vec Ideal S1x128 .f32) :
    k2_pay2 x1 x0 x2 x3 = layer (n := 5000) (k := 128) (c := 128) x0 (colv (0 : Fin 2) x1) x2 (rowv x3) := by
  funext j
  obtain ⟨p, q, rfl⟩ : ∃ (p : Fin 5000) (q : Fin 128), j = ix2 p q := ⟨j 0, j 1, eq_ix2 j⟩
  unfold k2_pay2 k2_pay1
  dsimp only
  rw [maximumf_apply, addf_apply, broadcast_apply, broadcastTo_1b_ab_apply]
  refine congrArg₂ max (congrArg₂ (· + ·) ?_ ?_) rfl
  · refine (matmul_zero_apply dot_S5000x128_S128x128_S5000x128_1_0_0_1_n_n rfl none _ _ (ix2 p q)).trans ?_
    exact congrArg (fun a => mm a x2 (ix2 p q)) (scaled_in x0 x1)
  · rw [shapeCast_self]; rfl

/-- The second stored value is the first with row r scaled by the second column of the block of factors. -/
theorem pay_s (x1 : Vec Ideal S5000x2 .f32) (x0 : Vec Ideal S5000x128 .f32) (x2 : Vec Ideal S128x128 .f32)
    (x3 : Vec Ideal S1x128 .f32) :
    k2_pay3 x1 x0 x2 x3
      = scaleRows (layer (n := 5000) (k := 128) (c := 128) x0 (colv (0 : Fin 2) x1) x2 (rowv x3)) (colv (1 : Fin 2) x1) := by
  funext j
  obtain ⟨p, q, rfl⟩ : ∃ (p : Fin 5000) (q : Fin 128), j = ix2 p q := ⟨j 0, j 1, eq_ix2 j⟩
  unfold k2_pay3 k2_pay1
  dsimp only
  rw [mulf_apply, broadcastTo_a1_ab_apply, sliceCol_apply, shapeCast_self, pay_h]
  rfl

/-! ## The blocks the region reads, as rows of its arrays -/

section
variable (V : (c : Dev nD) → (b : Ref sig .tc) → Buf (Elt Ideal) ((c : Thread nD τ).loc b))

theorem pt_lt (t : Fin cfg2.N) : t.val < 20 := lt_of_lt_of_eq t.isLt N_2

/-- Row p of block t is row 5000·t + p of the array. -/
def rowAt (t : Fin cfg2.N) (p : Fin 5000) : Fin 100000 :=
  ⟨t.val * 5000 + p.val, by have := pt_lt t; have := p.isLt; omega⟩

theorem hz : (![0, 0] : Fin 2 → Nat) = fun _ => 0 := funext fun a => by fin_cases a <;> rfl

/-- The printed index maps over the grid: a row-blocked window sits at block (t, 0), a whole-array window at (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The features' block at point t is rows 5000·t … of their array. -/
theorem blk_feat (c : Dev nD) (t : Fin cfg2.N) :
    (iblk2 V c 0 t : Mat 5000 128) = rowsOf (rowAt t) (V c main_v42) := by
  obtain ⟨e0, e1, -⟩ := index_facts t
  funext y
  show V c main_v42 (((cfg2.win 0).blk t).view.emb y) = V c main_v42 (ix2 (rowAt t (rowOf y)) (colOf y))
  refine congrArg _ (funext fun a => Fin.ext ?_)
  match a with
  | ⟨0, _⟩ => show win2_0.index t (0 : Fin 2) * 5000 + 1 * (y 0).val = t.val * 5000 + (y 0).val; omega
  | ⟨1, _⟩ => show win2_0.index t (1 : Fin 2) * 128 + 1 * (y 1).val = (y 1).val; omega

/-- The factors' block at point t is rows 5000·t … of their two-column array. -/
theorem blk_fact (c : Dev nD) (t : Fin cfg2.N) :
    (iblk2 V c 1 t : Mat 5000 2) = rowsOf (rowAt t) (V c main_v15) := by
  obtain ⟨-, -, e0, e1, -⟩ := index_facts t
  funext y
  show V c main_v15 (((cfg2.win 1).blk t).view.emb y) = V c main_v15 (ix2 (rowAt t (rowOf y)) (colOf y))
  refine congrArg _ (funext fun a => Fin.ext ?_)
  match a with
  | ⟨0, _⟩ => show win2_1.index t (0 : Fin 2) * 5000 + 1 * (y 0).val = t.val * 5000 + (y 0).val; omega
  | ⟨1, _⟩ => show win2_1.index t (1 : Fin 2) * 2 + 1 * (y 1).val = (y 1).val; omega

/-- The weights' block at every point is their whole array. -/
theorem blk_w (c : Dev nD) (t : Fin cfg2.N) : (iblk2 V c 2 t : Mat 128 128) = V c main_arg6 := by
  obtain ⟨-, -, -, -, e0, e1, -⟩ := index_facts t
  funext y
  show V c main_arg6 (((cfg2.win 2).blk t).view.emb y) = V c main_arg6 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The bias's block at every point is its whole one-row array. -/
theorem blk_b (c : Dev nD) (t : Fin cfg2.N) : (iblk2 V c 3 t : Mat 1 128) = V c main_v17 := by
  obtain ⟨-, -, -, -, -, -, e0, e1, -⟩ := index_facts t
  funext y
  show V c main_v17 (((cfg2.win 3).blk t).view.emb y) = V c main_v17 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-! ## The two results -/

/-- The layer's value over the whole arrays the region finds. -/
def hOf (c : Dev nD) : Mat 100000 128 :=
  layer (V c main_v42) (colv (0 : Fin 2) (V c main_v15)) (V c main_arg6) (rowv (V c main_v17))
/-- The same with row r scaled by the second factor: what is sent along the edges next. -/
def sOf (c : Dev nD) : Mat 100000 128 := scaleRows (hOf V c) (colv (1 : Fin 2) (V c main_v15))

/-- A block of rows of a result array, read through the result window's block at point t. -/
theorem read_rows4 (G : Mat 100000 128) (t : Fin cfg2.N) :
    (((cfg2.win 4).blk t).view.read (Elt Ideal) G : Mat 5000 128) = rowsOf (rowAt t) G := by
  obtain ⟨-, -, -, -, -, -, -, -, e0, e1, -⟩ := index_facts t
  funext y
  show G (((cfg2.win 4).blk t).view.emb y) = G (ix2 (rowAt t (rowOf y)) (colOf y))
  refine congrArg _ (funext fun a => Fin.ext ?_)
  match a with
  | ⟨0, _⟩ => show win2_4.index t (0 : Fin 2) * 5000 + 1 * (y 0).val = t.val * 5000 + (y 0).val; omega
  | ⟨1, _⟩ => show win2_4.index t (1 : Fin 2) * 128 + 1 * (y 1).val = (y 1).val; omega

theorem read_rows5 (G : Mat 100000 128) (t : Fin cfg2.N) :
    (((cfg2.win 5).blk t).view.read (Elt Ideal) G : Mat 5000 128) = rowsOf (rowAt t) G := by
  obtain ⟨-, -, -, -, -, -, -, -, -, -, e0, e1⟩ := index_facts t
  funext y
  show G (((cfg2.win 5).blk t).view.emb y) = G (ix2 (rowAt t (rowOf y)) (colOf y))
  refine congrArg _ (funext fun a => Fin.ext ?_)
  match a with
  | ⟨0, _⟩ => show win2_5.index t (0 : Fin 2) * 5000 + 1 * (y 0).val = t.val * 5000 + (y 0).val; omega
  | ⟨1, _⟩ => show win2_5.index t (1 : Fin 2) * 128 + 1 * (y 1).val = (y 1).val; omega

/-- What point t writes back to the first result is block t of the layer's value. -/
theorem flushed4 (c : Dev nD) (t : Fin cfg2.N) :
    (dat2 V c).flushed 4 t = ((cfg2.win 4).blk t).view.read (Elt Ideal) (hOf V c) := by
  show (cfg2.win 4).cut (grid2.coords t) ((dat2 V c).after 4 t) = _
  rw [after2_4]
  unfold out2_4
  rw [View.canon_unit_zero hz]
  simp only [View.ld_unit_zero (S := S5000x2) hz, View.ld_unit_zero (S := S5000x128) hz,
    View.ld_unit_zero (S := S128x128) hz, View.ld_unit_zero (S := S1x128) hz]
  rw [pay_h (iblk2 V c 1 t) (iblk2 V c 0 t) (iblk2 V c 2 t) (iblk2 V c 3 t)]
  refine Eq.trans ?_ (read_rows4 (hOf V c) t).symm
  show layer (iblk2 V c 0 t : Mat 5000 128) (colv (0 : Fin 2) (iblk2 V c 1 t : Mat 5000 2)) (iblk2 V c 2 t : Mat 128 128)
      (rowv (iblk2 V c 3 t : Mat 1 128)) = _
  rw [blk_feat, blk_fact, blk_w, blk_b, colv_rows, rows_layer]
  rfl

/-- What point t writes back to the second result is block t of the scaled value. -/
theorem flushed5 (c : Dev nD) (t : Fin cfg2.N) :
    (dat2 V c).flushed 5 t = ((cfg2.win 5).blk t).view.read (Elt Ideal) (sOf V c) := by
  show (cfg2.win 5).cut (grid2.coords t) ((dat2 V c).after 5 t) = _
  rw [after2_5]
  unfold out2_5
  rw [View.canon_unit_zero hz]
  simp only [View.ld_unit_zero (S := S5000x2) hz, View.ld_unit_zero (S := S5000x128) hz,
    View.ld_unit_zero (S := S128x128) hz, View.ld_unit_zero (S := S1x128) hz]
  rw [pay_s (iblk2 V c 1 t) (iblk2 V c 0 t) (iblk2 V c 2 t) (iblk2 V c 3 t)]
  refine Eq.trans ?_ (read_rows5 (sOf V c) t).symm
  show scaleRows (layer (iblk2 V c 0 t : Mat 5000 128) (colv (0 : Fin 2) (iblk2 V c 1 t : Mat 5000 2)) (iblk2 V c 2 t : Mat 128 128)
      (rowv (iblk2 V c 3 t : Mat 1 128))) (colv (1 : Fin 2) (iblk2 V c 1 t : Mat 5000 2)) = _
  rw [blk_feat, blk_fact, blk_w, blk_b, colv_rows, colv_rows, rows_layer, rows_scaleRows]
  rfl

/-- An index of a result array lies in point t's block iff each coordinate is in the block's range. -/
theorem mem_blk4 (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v43_0).slice (win2_4.rect t)).set ↔ _
  rw [View.set_slice_whole, Rect.mem_set_unit]
  exact Iff.rfl

theorem mem_blk5 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v43_1).slice (win2_5.rect t)).set ↔ _
  rw [View.set_slice_whole, Rect.mem_set_unit]
  exact Iff.rfl

/-- Row r lies in the block of point r / 5000. -/
theorem cover4 (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  let t : Fin cfg2.N := ⟨(i 0).val / 5000, lt_of_lt_of_eq (by omega : (i 0).val / 5000 < 20) N_2.symm⟩
  obtain ⟨-, -, -, -, -, -, -, -, e0, e1, -⟩ := index_facts t
  have e0' : win2_4.index t (0 : Fin 2) = (i 0).val / 5000 := e0
  refine ⟨t, flush2_4 t, ?_⟩
  rw [mem_blk4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

theorem cover5 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  let t : Fin cfg2.N := ⟨(i 0).val / 5000, lt_of_lt_of_eq (by omega : (i 0).val / 5000 < 20) N_2.symm⟩
  obtain ⟨-, -, -, -, -, -, -, -, -, -, e0, e1⟩ := index_facts t
  have e0' : win2_5.index t (0 : Fin 2) = (i 0).val / 5000 := e0
  refine ⟨t, flush2_5 t, ?_⟩
  rw [mem_blk5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE FIRST RESULT when the region is left: the layer's value of the arrays it found. -/
theorem final4 (c : Dev nD) : (dat2 V c).arrAt 4 cfg2.N = hOf V c :=
  (dat2 V c).arrAt_eq_of_cover 4 (hOf V c) (fun t _ => flushed4 V c t) cover4

/-- THE SECOND RESULT when the region is left: that value with its rows scaled by the second factor. -/
theorem final5 (c : Dev nD) : (dat2 V c).arrAt 5 cfg2.N = sOf V c :=
  (dat2 V c).arrAt_eq_of_cover 5 (sOf V c) (fun t _ => flushed5 V c t) cover5

end

end Cert.KernelIdeal.ConvB

end
-- ==== Proof.ConvC.lean ====
/-
  The last convolution region: what its result array holds when it is left.

  The region walks 20 blocks of 5000 rows.  At block t it reads rows 5000·t … 5000·t + 4999 of the aggregated
  features and of the one-column array of in-degree factors, the whole weight matrix and the one-row bias, and
  writes the same rows of the layer's value (the rows scaled by the factor, times the weights, plus the bias,
  rectified).  Every row of the result depends only on the same row of the operands, so each block written is
  that block of rows of one function of the whole arrays, and the twenty blocks cover the array.
-/
import proofs.«177687_j66846870995328_1_alg».proof.Proof.Gen.KernelIdeal.Frame
import proofs.«177687_j66846870995328_1_alg».proof.Proof.NetSpec
import proofs.«177687_j66846870995328_1_alg».proof.Proof.LibRowLayout
import Idealize.ShloMosaic.Lib.Pipeline.Value
import Idealize.ShloMosaic.Lib.ValueLayout

set_option maxRecDepth 16384

noncomputable section

namespace Cert.KernelIdeal.ConvC

open Cert.KernelIdeal Cert.KernelIdeal.Gen Cert.GraphNet Cert.Lib.PlainDot Cert.KernelIdeal.MvnKernel
open Idealize.ShloMosaic Idealize.ShloMosaic.ValueIdx Idealize.ShloMosaic.TcCoe
open Idealize.ShloMosaic.Pipeline (Dat Cfg Window)

/-! ## The body's arithmetic on one block -/

/-- The block of features with row r scaled by the block of factors at row r. -/
theorem scaled_in (x0 : Vec Ideal S5000x128 .f32) (x1 : Vec Ideal S5000x1 .f32) :
    (mulf (F := Ideal) (φ := .f32) (shapeCast S5000x128 x0 shapeCasts_S5000x128_S5000x128)
      (broadcastTo S5000x128 (shapeCast S5000x1 x1 shapeCasts_S5000x1_S5000x1) broadcasts_S5000x1_S5000x128) : Mat 5000 128)
      = scaleRows x0 (colv (0 : Fin 1) x1) := by
  simp only [shapeCast_self]
  funext j
  obtain ⟨p, q, rfl⟩ : ∃ (p : Fin 5000) (q : Fin 128), j = ix2 p q := ⟨j 0, j 1, eq_ix2 j⟩
  rw [mulf_apply, broadcastTo_a1_ab_apply]
  rfl

/-- The stored value is the layer's function of the four blocks. -/
theorem pay_h (x1 : Vec Ideal S5000x1 .f32) (x0 : Vec Ideal S5000x128 .f32) (x2 : Vec Ideal S128x128 .f32)
    (x3 : Vec Ideal S1x128 .f32) :
    k3_pay1 x1 x0 x2 x3 = layer (n := 5000) (k := 128) (c := 128) x0 (colv (0 : Fin 1) x1) x2 (rowv x3) := by
  funext j
  obtain ⟨p, q, rfl⟩ : ∃ (p : Fin 5000) (q : Fin 128), j = ix2 p q := ⟨j 0, j 1, eq_ix2 j⟩
  unfold k3_pay1
  rw [maximumf_apply, addf_apply, broadcast_apply, broadcastTo_1b_ab_apply]
  refine congrArg₂ max (congrArg₂ (· + ·) ?_ ?_) rfl
  · refine (matmul_zero_apply dot_S5000x128_S128x128_S5000x128_1_0_0_1_n_n rfl none _ _ (ix2 p q)).trans ?_
    exact congrArg (fun a => mm a x2 (ix2 p q)) (scaled_in x0 x1)
  · rw [shapeCast_self]; rfl

/-! ## The blocks the region reads, as rows of its arrays -/

section
variable (V : (c : Dev nD) → (b : Ref sig .tc) → Buf (Elt Ideal) ((c : Thread nD τ).loc b))

theorem pt_lt (t : Fin cfg3.N) : t.val < 20 := lt_of_lt_of_eq t.isLt N_3

/-- Row p of block t is row 5000·t + p of the array. -/
def rowAt (t : Fin cfg3.N) (p : Fin 5000) : Fin 100000 :=
  ⟨t.val * 5000 + p.val, by have := pt_lt t; have := p.isLt; omega⟩

theorem hz : (![0, 0] : Fin 2 → Nat) = fun _ => 0 := funext fun a => by fin_cases a <;> rfl

/-- The printed index maps over the grid: a row-blocked window sits at block (t, 0), a whole-array window at (0, 0). -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The features' block at point t is rows 5000·t … of their array. -/
theorem blk_feat (c : Dev nD) (t : Fin cfg3.N) :
    (iblk3 V c 0 t : Mat 5000 128) = rowsOf (rowAt t) (V c main_v53) := by
  obtain ⟨e0, e1, -⟩ := index_facts t
  funext y
  show V c main_v53 (((cfg3.win 0).blk t).view.emb y) = V c main_v53 (ix2 (rowAt t (rowOf y)) (colOf y))
  refine congrArg _ (funext fun a => Fin.ext ?_)
  match a with
  | ⟨0, _⟩ => show win3_0.index t (0 : Fin 2) * 5000 + 1 * (y 0).val = t.val * 5000 + (y 0).val; omega
  | ⟨1, _⟩ => show win3_0.index t (1 : Fin 2) * 128 + 1 * (y 1).val = (y 1).val; omega

/-- The factors' block at point t is rows 5000·t … of their one-column array. -/
theorem blk_fact (c : Dev nD) (t : Fin cfg3.N) :
    (iblk3 V c 1 t : Mat 5000 1) = rowsOf (rowAt t) (V c main_v14) := by
  obtain ⟨-, -, e0, e1, -⟩ := index_facts t
  funext y
  show V c main_v14 (((cfg3.win 1).blk t).view.emb y) = V c main_v14 (ix2 (rowAt t (rowOf y)) (colOf y))
  refine congrArg _ (funext fun a => Fin.ext ?_)
  match a with
  | ⟨0, _⟩ => show win3_1.index t (0 : Fin 2) * 5000 + 1 * (y 0).val = t.val * 5000 + (y 0).val; omega
  | ⟨1, _⟩ => show win3_1.index t (1 : Fin 2) * 1 + 1 * (y 1).val = (y 1).val; omega

/-- The weights' block at every point is their whole array. -/
theorem blk_w (c : Dev nD) (t : Fin cfg3.N) : (iblk3 V c 2 t : Mat 128 128) = V c main_arg8 := by
  obtain ⟨-, -, -, -, e0, e1, -⟩ := index_facts t
  funext y
  show V c main_arg8 (((cfg3.win 2).blk t).view.emb y) = V c main_arg8 y
  refine congrArg _ (funext fun a => Fin.ext ?_)
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- The bias's block at every point is its whole one-row array. -/
theorem blk_b (c : Dev nD) (t : Fin cfg3.N) : (iblk3 V c 3 t : Mat 1 128) = V c main_v18 := by
  obtain ⟨-, -, -, -, -, -, e0, e1, -⟩ := index_facts t
  funext y
  show V c main_v18 (((cfg3.win 3).blk t).view.emb y) = V c main_v18 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-! ## The result -/

/-- The layer's value over the whole arrays the region finds. -/
def hOf (c : Dev nD) : Mat 100000 128 :=
  layer (V c main_v53) (colv (0 : Fin 1) (V c main_v14)) (V c main_arg8) (rowv (V c main_v18))

/-- A block of rows of the result array, read through the result window's block at point t. -/
theorem read_rows4 (G : Mat 100000 128) (t : Fin cfg3.N) :
    (((cfg3.win 4).blk t).view.read (Elt Ideal) G : Mat 5000 128) = rowsOf (rowAt t) G := by
  obtain ⟨-, -, -, -, -, -, -, -, e0, e1⟩ := index_facts t
  funext y
  show G (((cfg3.win 4).blk t).view.emb y) = G (ix2 (rowAt t (rowOf y)) (colOf y))
  refine congrArg _ (funext fun a => Fin.ext ?_)
  match a with
  | ⟨0, _⟩ => show win3_4.index t (0 : Fin 2) * 5000 + 1 * (y 0).val = t.val * 5000 + (y 0).val; omega
  | ⟨1, _⟩ => show win3_4.index t (1 : Fin 2) * 128 + 1 * (y 1).val = (y 1).val; omega

/-- What point t writes back is block t of the layer's value. -/
theorem flushed4 (c : Dev nD) (t : Fin cfg3.N) :
    (dat3 V c).flushed 4 t = ((cfg3.win 4).blk t).view.read (Elt Ideal) (hOf V c) := by
  show (cfg3.win 4).cut (grid3.coords t) ((dat3 V c).after 4 t) = _
  rw [after3_4]
  unfold out3_4
  rw [View.canon_unit_zero hz]
  simp only [View.ld_unit_zero (S := S5000x1) hz, View.ld_unit_zero (S := S5000x128) hz,
    View.ld_unit_zero (S := S128x128) hz, View.ld_unit_zero (S := S1x128) hz]
  rw [pay_h (iblk3 V c 1 t) (iblk3 V c 0 t) (iblk3 V c 2 t) (iblk3 V c 3 t)]
  refine Eq.trans ?_ (read_rows4 (hOf V c) t).symm
  show layer (iblk3 V c 0 t : Mat 5000 128) (colv (0 : Fin 1) (iblk3 V c 1 t : Mat 5000 1)) (iblk3 V c 2 t : Mat 128 128)
      (rowv (iblk3 V c 3 t : Mat 1 128)) = _
  rw [blk_feat, blk_fact, blk_w, blk_b, colv_rows, rows_layer]
  rfl

/-- An index of the result array lies in point t's block iff each coordinate is in the block's range. -/
theorem mem_blk4 (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v54).slice (win3_4.rect t)).set ↔ _
  rw [View.set_slice_whole, Rect.mem_set_unit]
  exact Iff.rfl

/-- Row r lies in the block of point r / 5000. -/
theorem cover4 (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  let t : Fin cfg3.N := ⟨(i 0).val / 5000, lt_of_lt_of_eq (by omega : (i 0).val / 5000 < 20) N_3.symm⟩
  obtain ⟨-, -, -, -, -, -, -, -, e0, e1⟩ := index_facts t
  have e0' : win3_4.index t (0 : Fin 2) = (i 0).val / 5000 := e0
  refine ⟨t, flush3_4 t, ?_⟩
  rw [mem_blk4]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- THE RESULT when the region is left: the layer's value of the arrays it found. -/
theorem final4 (c : Dev nD) : (dat3 V c).arrAt 4 cfg3.N = hOf V c :=
  (dat3 V c).arrAt_eq_of_cover 4 (hOf V c) (fun t _ => flushed4 V c t) cover4

end

end Cert.KernelIdeal.ConvC

end
-- ==== Proof.HeadOut.lean ====
/-
  The head region: the per-graph sums through two affine maps with a rectifier between them.

  The region has one grid point; every window's block is its whole array.  The body computes the head of the
  specification from the five arrays it reads, and the one block written is the whole result.
-/
import proofs.«177687_j66846870995328_1_alg».proof.Proof.Gen.KernelIdeal.Frame
import proofs.«177687_j66846870995328_1_alg».proof.Proof.NetSpec
import proofs.«177687_j66846870995328_1_alg».proof.Proof.LibRowLayout
import Idealize.ShloMosaic.Lib.Pipeline.Value
import Idealize.ShloMosaic.Lib.ValueLayout

set_option maxRecDepth 16384

noncomputable section

namespace Cert.KernelIdeal.HeadOut

open Cert.KernelIdeal Cert.KernelIdeal.Gen Cert.GraphNet Cert.Lib.PlainDot Cert.KernelIdeal.MvnKernel
open Idealize.ShloMosaic Idealize.ShloMosaic.ValueIdx Idealize.ShloMosaic.TcCoe
open Idealize.ShloMosaic.Pipeline (Dat Cfg Window)

/-- The hidden layer: the sums times the first weights, plus the first bias, rectified. -/
theorem hidden (g : Vec Ideal S512x128 .f32) (w1 : Vec Ideal S128x128 .f32) (b1 : Vec Ideal S1x128 .f32) :
    (maximumf (F := Ideal) (φ := .f32)
      (addf (matmul dot_S512x128_S128x128_S512x128_1_0_0_1_n_n none
          (truncf .bf16 (shapeCast S512x128 g shapeCasts_S512x128_S512x128) bitsLt_bf16_f32)
          (truncf .bf16 w1 bitsLt_bf16_f32) (constant S512x128 .f32 0x00000000#32))
        (broadcastTo S512x128 (shapeCast S1x128 b1 shapeCasts_S1x128_S1x128) broadcasts_S1x128_S512x128))
      (broadcast S512x128 (Scalar.ofBits .f32 0x00000000#32)) : Mat 512 128)
      = rect (affine g w1 (rowv b1)) := by
  simp only [shapeCast_self]
  funext j
  obtain ⟨p, q, rfl⟩ : ∃ (p : Fin 512) (q : Fin 128), j = ix2 p q := ⟨j 0, j 1, eq_ix2 j⟩
  rw [maximumf_apply, addf_apply, broadcast_apply, broadcastTo_1b_ab_apply]
  refine congrArg₂ max (congrArg₂ (· + ·) ?_ rfl) rfl
  exact matmul_zero_apply dot_S512x128_S128x128_S512x128_1_0_0_1_n_n rfl none _ _ (ix2 p q)

/-- The stored value is the head's function of the five arrays. -/
theorem pay_out (g : Vec Ideal S512x128 .f32) (w1 : Vec Ideal S128x128 .f32) (b1 : Vec Ideal S1x128 .f32)
    (w2 : Vec Ideal S128x1 .f32) (b2 : Vec Ideal S1x1 .f32) :
    (k4_pay1 g w1 b1 w2 b2 : Mat 512 1) = head g w1 (rowv b1) w2 (rowv b2) := by
  funext j
  obtain ⟨p, q, rfl⟩ : ∃ (p : Fin 512) (q : Fin 1), j = ix2 p q := ⟨j 0, j 1, eq_ix2 j⟩
  unfold k4_pay1
  rw [addf_apply, broadcastTo_1b_ab_apply]
  refine congrArg₂ (· + ·) ?_ ?_
  · refine (matmul_zero_apply dot_S512x128_S128x1_S512x1_1_0_0_1_n_n rfl none _ _ (ix2 p q)).trans ?_
    exact congrArg (fun a => mm a w2 (ix2 p q)) (hidden g w1 b1)
  · rw [shapeCast_self]; rfl

section
variable (V : (c : Dev nD) → (b : Ref sig .tc) → Buf (Elt Ideal) ((c : Thread nD τ).loc b))

theorem hz : (![0, 0] : Fin 2 → Nat) = fun _ => 0 := funext fun a => by fin_cases a <;> rfl

/-- The printed index maps at the one grid point: every window sits at block (0, 0). -/
theorem index_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

theorem blk0 (c : Dev nD) (t : Fin cfg4.N) : (iblk4 V c 0 t : Mat 512 128) = V c main_v57 := by
  obtain ⟨e0, e1, -⟩ := index_facts t
  funext y
  show V c main_v57 (((cfg4.win 0).blk t).view.emb y) = V c main_v57 y
  refine congrArg _ (funext fun a => Fin.ext ?_)
  match a with
  | ⟨0, _⟩ => show win4_0.index t (0 : Fin 2) * 512 + 1 * (y 0).val = (y 0).val; omega
  | ⟨1, _⟩ => show win4_0.index t (1 : Fin 2) * 128 + 1 * (y 1).val = (y 1).val; omega

theorem blk1 (c : Dev nD) (t : Fin cfg4.N) : (iblk4 V c 1 t : Mat 128 128) = V c main_arg10 := by
  obtain ⟨-, -, e0, e1, -⟩ := index_facts t
  funext y
  show V c main_arg10 (((cfg4.win 1).blk t).view.emb y) = V c main_arg10 y
  refine congrArg _ (funext fun a => Fin.ext ?_)
  match a with
  | ⟨0, _⟩ => show win4_1.index t (0 : Fin 2) * 128 + 1 * (y 0).val = (y 0).val; omega
  | ⟨1, _⟩ => show win4_1.index t (1 : Fin 2) * 128 + 1 * (y 1).val = (y 1).val; omega

theorem blk2 (c : Dev nD) (t : Fin cfg4.N) : (iblk4 V c 2 t : Mat 1 128) = V c main_v19 := by
  obtain ⟨-, -, -, -, e0, e1, -⟩ := index_facts t
  funext y
  show V c main_v19 (((cfg4.win 2).blk t).view.emb y) = V c main_v19 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

theorem blk3 (c : Dev nD) (t : Fin cfg4.N) : (iblk4 V c 3 t : Mat 128 1) = V c main_arg12 := by
  obtain ⟨-, -, -, -, -, -, e0, e1, -⟩ := index_facts t
  funext y
  show V c main_arg12 (((cfg4.win 3).blk t).view.emb y) = V c main_arg12 y
  refine congrArg _ (funext fun a => Fin.ext ?_)
  match a with
  | ⟨0, _⟩ => show win4_3.index t (0 : Fin 2) * 128 + 1 * (y 0).val = (y 0).val; omega
  | ⟨1, _⟩ => show win4_3.index t (1 : Fin 2) * 1 + 1 * (y 1).val = (y 1).val; omega

theorem blk4 (c : Dev nD) (t : Fin cfg4.N) : (iblk4 V c 4 t : Mat 1 1) = V c main_v20 := by
  obtain ⟨-, -, -, -, -, -, -, -, e0, e1, -⟩ := index_facts t
  funext y
  show V c main_v20 (((cfg4.win 4).blk t).view.emb y) = V c main_v20 y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 1 + 1 * (y 1).val = (y 1).val; omega

/-- The head over the whole arrays the region finds. -/
def outOf (c : Dev nD) : Mat 512 1 :=
  head (V c main_v57) (V c main_arg10) (rowv (V c main_v19)) (V c main_arg12) (rowv (V c main_v20))

/-- The result window's one block is the whole result array. -/
theorem read_all5 (G : Mat 512 1) (t : Fin cfg4.N) : (((cfg4.win 5).blk t).view.read (Elt Ideal) G : Mat 512 1) = G := by
  obtain ⟨-, -, -, -, -, -, -, -, -, -, e0, e1⟩ := index_facts t
  funext y
  show G (((cfg4.win 5).blk t).view.emb y) = G y
  refine congrArg _ (funext fun a => Fin.ext ?_)
  match a with
  | ⟨0, _⟩ => show win4_5.index t (0 : Fin 2) * 512 + 1 * (y 0).val = (y 0).val; omega
  | ⟨1, _⟩ => show win4_5.index t (1 : Fin 2) * 1 + 1 * (y 1).val = (y 1).val; omega

/-- What the one point writes back is the head's value. -/
theorem flushed5 (c : Dev nD) (t : Fin cfg4.N) :
    (dat4 V c).flushed 5 t = ((cfg4.win 5).blk t).view.read (Elt Ideal) (outOf V c) := by
  show (cfg4.win 5).cut (grid4.coords t) ((dat4 V c).after 5 t) = _
  rw [after4_5]
  unfold out4_5
  rw [View.canon_unit_zero hz]
  simp only [View.ld_unit_zero (S := S512x128) hz, View.ld_unit_zero (S := S128x128) hz,
    View.ld_unit_zero (S := S1x128) hz, View.ld_unit_zero (S := S128x1) hz, View.ld_unit_zero (S := S1x1) hz]
  refine Eq.trans ?_ (read_all5 (outOf V c) t).symm
  refine (pay_out (iblk4 V c 0 t) (iblk4 V c 1 t) (iblk4 V c 2 t) (iblk4 V c 3 t) (iblk4 V c 4 t)).trans ?_
  show head (iblk4 V c 0 t : Mat 512 128) (iblk4 V c 1 t : Mat 128 128) (rowv (iblk4 V c 2 t : Mat 1 128))
      (iblk4 V c 3 t : Mat 128 1) (rowv (iblk4 V c 4 t : Mat 1 1)) = _
  rw [blk0, blk1, blk2, blk3, blk4]
  rfl

/-- An index of the result array lies in the point's block iff each coordinate is in the block's range. -/
theorem mem_blk5 (t : Fin cfg4.N) (i : S512x1.Idx) :
    i ∈ ((cfg4.win 5).blk t).view.set ↔ ∀ a : Fin 2, win4_5.index t a * S512x1.size a ≤ (i a).val
      ∧ (i a).val < win4_5.index t a * S512x1.size a + S512x1.size a := by
  show i ∈ ((View.whole main_v58).slice (win4_5.rect t)).set ↔ _
  rw [View.set_slice_whole, Rect.mem_set_unit]
  exact Iff.rfl

/-- Every index lies in the one point's block. -/
theorem cover5 (i : S512x1.Idx) : ∃ t : Fin cfg4.N, (cfg4.win 5).flush t = true ∧ i ∈ ((cfg4.win 5).blk t).view.set := by
  have hi0 : (i 0).val < 512 := (i 0).isLt
  have hi1 : (i 1).val < 1 := (i 1).isLt
  obtain ⟨-, -, -, -, -, -, -, -, -, -, e0, e1⟩ := index_facts t4_0
  refine ⟨t4_0, flush4_5 t4_0, ?_⟩
  rw [mem_blk5]
  intro a
  match a with
  | ⟨0, _⟩ => show win4_5.index t4_0 (0 : Fin 2) * 512 ≤ (i 0).val ∧ (i 0).val < win4_5.index t4_0 (0 : Fin 2) * 512 + 512; omega
  | ⟨1, _⟩ => show win4_5.index t4_0 (1 : Fin 2) * 1 ≤ (i 1).val ∧ (i 1).val < win4_5.index t4_0 (1 : Fin 2) * 1 + 1; omega

/-- THE RESULT when the region is left: the head of the arrays it found. -/
theorem final5 (c : Dev nD) : (dat4 V c).arrAt 5 cfg4.N = outOf V c :=
  (dat4 V c).arrAt_eq_of_cover 5 (outOf V c) (fun t _ => flushed5 V c t) cover5

end

end Cert.KernelIdeal.HeadOut

end
-- ==== Proof.Chain.lean ====
/-
  The idealized kernel program's result is the network of the specification.

  The buffers' contents at the ten boundaries of @main are followed from the launch to the return.  The first
  stretch of host operations computes the two vectors of degree factors, lays them out as a column each and as a
  two-column array, and casts the biases to rows.  Then each region's result is the specification's function of
  what the region finds (the region modules), each stretch between two regions aggregates the previous result
  over the edges, the last stretch sums the nodes' rows per graph, and the head region ends at the result.
  A buffer that a stretch does not write and that is not one of a region's arrays keeps its contents across it.
-/
import proofs.«177687_j66846870995328_1_alg».proof.Proof.Gen.KernelIdeal.Frame
import proofs.«177687_j66846870995328_1_alg».proof.Proof.NetSpec
import proofs.«177687_j66846870995328_1_alg».proof.Proof.Layout
import proofs.«177687_j66846870995328_1_alg».proof.Proof.ScaleIn
import proofs.«177687_j66846870995328_1_alg».proof.Proof.ConvA
import proofs.«177687_j66846870995328_1_alg».proof.Proof.ConvB
import proofs.«177687_j66846870995328_1_alg».proof.Proof.ConvC
import proofs.«177687_j66846870995328_1_alg».proof.Proof.HeadOut
import Idealize.ShloMosaic.Lib.StableHlo.Run

set_option maxRecDepth 16384

noncomputable section

namespace Cert.KernelIdeal.Chain

open Cert.KernelIdeal Cert.KernelIdeal.Gen Cert.GraphNet
open Idealize.ShloMosaic Idealize.ShloMosaic.ValueIdx Idealize.ShloMosaic.TcCoe Idealize.ShloMosaic.StableHlo
open Idealize.SL.Sem

/-! ## The shared array operations, as this program spells them -/

/-- The degree factor of every node from one end of the edges: 1/sqrt of the larger of the count and one. -/
def degK (idx : IVec S1600000 32) : FVec Ideal S100000 .f32 :=
  Host.rsqrt (maximumf (Host.scatterAdd scatter_S100000_S1600000x1_S1600000_n_0_0_1
      (broadcastInDim S100000 ![] bcast_S_S100000 (constant S_ .f32 0x00000000#32))
      (broadcastInDim S1600000x1 ![0] bcast_S1600000_S1600000x1_0 idx)
      (broadcastInDim S1600000 ![] bcast_S_S1600000 (constant S_ .f32 0x3F800000#32)))
    (broadcastInDim S100000 ![] bcast_S_S100000 (constant S_ .f32 0x3F800000#32)))

/-- For every node, the sum over the edges into it of the source node's row. -/
def aggrK (src dst : IVec S1600000 32) (xs : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 xs
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- For every graph, the sum of its nodes' rows. -/
def poolK (n2g : IVec S100000 32) (h : FVec Ideal S100000x128 .f32) : FVec Ideal S512x128 .f32 :=
  Host.scatterAdd scatter_S512x128_S100000x1_S100000x128_1_0_0_1
    (broadcastInDim S512x128 ![] bcast_S_S512x128 (constant S_ .f32 0x00000000#32))
    (broadcastInDim S100000x1 ![0] bcast_S100000_S100000x1_0 n2g) h

variable (m : (ℓ : Loc nD τ sig) → Buf (Elt Ideal) ℓ) (ρ : Dev nD → PrngReg) (c : Dev nD)

/-- An argument array as launched. -/
abbrev argAt (b : Ref sig .tc) : Buf (Elt Ideal) ((c : Thread nD τ).loc b) := m ((c : Thread nD τ).loc b)

/-- The out-degree factors (from the edges' sources) and the in-degree factors (from their targets). -/
def dout : Vct 100000 := degK (argAt m c main_arg1)
def din : Vct 100000 := degK (argAt m c main_arg2)

/-! ## Walking a buffer back through the boundaries -/

/-- Step a read of a boundary's contents back: across a region at a buffer that is not one of its arrays, across a
    stretch of host operations by the operations' results. -/
macro "walk" : tactic => `(tactic| repeat (first
  | (rw [W10_of_ne]; rotate_left; decide)
  | (rw [W8_of_ne]; rotate_left; decide)
  | (rw [W6_of_ne]; rotate_left; decide)
  | (rw [W4_of_ne]; rotate_left; decide)
  | (rw [W2_of_ne]; rotate_left; decide)
  | (dsimp only [W9, hostOps4]; after_results)
  | (dsimp only [W7, hostOps3]; after_results)
  | (dsimp only [W5, hostOps2]; after_results)
  | (dsimp only [W3, hostOps1]; after_results)
  | (dsimp only [W1, hostOps0]; after_results)))

/-! ## The first stretch -/

theorem w1_arg0 : W1 m ρ c (Proc.devRef .tc main_arg0) = argAt m c main_arg0 := by walk <;> try rfl

theorem w1_v13 : (W1 m ρ c (Proc.devRef .tc main_v13) : Mat 100000 1)
    = shapeCast S100000x1 (dout m c) shapeCasts_S100000_S100000x1 := by walk <;> try rfl

/-! ## What each later region finds besides the aggregated features -/

/-- The two-column array of factors: in-degree first, out-degree second. -/
def factors : Mat 100000 2 :=
  concatenate S100000x2 1 [⟨S100000x1, shapeCast S100000x1 (din m c) shapeCasts_S100000_S100000x1⟩,
    ⟨S100000x1, shapeCast S100000x1 (dout m c) shapeCasts_S100000_S100000x1⟩] concatenates_S100000x1_S100000x1_S100000x2_d1

set_option maxHeartbeats 2000000 in
/-- The factors' array after the first stretch: each column is one vector of factors cast to a column. -/
theorem w1_v15 : (W1 m ρ c (Proc.devRef .tc main_v15) : Mat 100000 2) = factors m c := by
  dsimp only [W1, hostOps0]
  after_results
  unfold factors
  refine congrArg₂ (fun (a b : Mat 100000 1) => (concatenate S100000x2 1 [⟨S100000x1, a⟩, ⟨S100000x1, b⟩]
    concatenates_S100000x1_S100000x1_S100000x2_d1 : Mat 100000 2)) ?_ ?_
  · rfl
  · rfl

theorem w3_v15 : (W3 m ρ c (Proc.devRef .tc main_v15) : Mat 100000 2) = factors m c := by
  dsimp only [W3, hostOps1]; after_results
  rw [W2_of_ne m ρ c main_v15 (by decide)]
  exact w1_v15 m ρ c

/-- The factors' array is an input of the first convolution region: the region leaves it as found. -/
theorem w4_v15 : W4 m ρ c (Proc.devRef .tc main_v15) = W3 m ρ c (Proc.devRef .tc main_v15) :=
  (W4_arr m ρ c 1).trans (((dat1 (V3 m ρ) c).arrAt_in 1 rfl _).trans (A_eq1 (V3 m ρ) c 1))

theorem w5_v15 : (W5 m ρ c (Proc.devRef .tc main_v15) : Mat 100000 2) = factors m c := by
  dsimp only [W5, hostOps2]; after_results
  exact (w4_v15 m ρ c).trans (w3_v15 m ρ c)

theorem w7_v14 : (W7 m ρ c (Proc.devRef .tc main_v14) : Mat 100000 1)
    = shapeCast S100000x1 (din m c) shapeCasts_S100000_S100000x1 := by walk <;> try rfl

theorem w3_v16 : (W3 m ρ c (Proc.devRef .tc main_v16) : Mat 1 128)
    = shapeCast S1x128 (argAt m c main_arg5) shapeCasts_S128_S1x128 := by walk <;> try rfl
theorem w5_v17 : (W5 m ρ c (Proc.devRef .tc main_v17) : Mat 1 128)
    = shapeCast S1x128 (argAt m c main_arg7) shapeCasts_S128_S1x128 := by walk <;> try rfl
theorem w7_v18 : (W7 m ρ c (Proc.devRef .tc main_v18) : Mat 1 128)
    = shapeCast S1x128 (argAt m c main_arg9) shapeCasts_S128_S1x128 := by walk <;> try rfl
theorem w9_v19 : (W9 m ρ c (Proc.devRef .tc main_v19) : Mat 1 128)
    = shapeCast S1x128 (argAt m c main_arg11) shapeCasts_S128_S1x128 := by walk <;> try rfl
theorem w9_v20 : (W9 m ρ c (Proc.devRef .tc main_v20) : Mat 1 1)
    = shapeCast S1x1 (argAt m c main_arg13) shapeCasts_S1_S1x1 := by walk <;> try rfl

theorem w3_arg4 : W3 m ρ c (Proc.devRef .tc main_arg4) = argAt m c main_arg4 := by walk <;> try rfl
theorem w5_arg6 : W5 m ρ c (Proc.devRef .tc main_arg6) = argAt m c main_arg6 := by walk <;> try rfl
theorem w7_arg8 : W7 m ρ c (Proc.devRef .tc main_arg8) = argAt m c main_arg8 := by walk <;> try rfl
theorem w9_arg10 : W9 m ρ c (Proc.devRef .tc main_arg10) = argAt m c main_arg10 := by walk <;> try rfl
theorem w9_arg12 : W9 m ρ c (Proc.devRef .tc main_arg12) = argAt m c main_arg12 := by walk <;> try rfl

theorem w2_arg1 : W2 m ρ c (Proc.devRef .tc main_arg1) = argAt m c main_arg1 := by walk <;> try rfl
theorem w2_arg2 : W2 m ρ c (Proc.devRef .tc main_arg2) = argAt m c main_arg2 := by walk <;> try rfl
theorem w4_arg1 : W4 m ρ c (Proc.devRef .tc main_arg1) = argAt m c main_arg1 := by walk <;> try rfl
theorem w4_arg2 : W4 m ρ c (Proc.devRef .tc main_arg2) = argAt m c main_arg2 := by walk <;> try rfl
theorem w6_arg1 : W6 m ρ c (Proc.devRef .tc main_arg1) = argAt m c main_arg1 := by walk <;> try rfl
theorem w6_arg2 : W6 m ρ c (Proc.devRef .tc main_arg2) = argAt m c main_arg2 := by walk <;> try rfl
theorem w8_arg3 : W8 m ρ c (Proc.devRef .tc main_arg3) = argAt m c main_arg3 := by walk <;> try rfl

/-! ## The stages -/

/-- What is sent along the edges into the first layer: the input features, rows scaled by the out-degree factors. -/
def xs0 : Mat 100000 128 := scaleRows (argAt m c main_arg0) (dout m c)
/-- The first layer's value, and what it sends on. -/
def h0 : Mat 100000 128 :=
  layer (aggrK (argAt m c main_arg1) (argAt m c main_arg2) (xs0 m c)) (din m c) (argAt m c main_arg4) (argAt m c main_arg5)
def xs1 : Mat 100000 128 := scaleRows (h0 m c) (dout m c)
/-- The second layer's value, and what it sends on. -/
def h1 : Mat 100000 128 :=
  layer (aggrK (argAt m c main_arg1) (argAt m c main_arg2) (xs1 m c)) (din m c) (argAt m c main_arg6) (argAt m c main_arg7)
def xs2 : Mat 100000 128 := scaleRows (h1 m c) (dout m c)
/-- The third layer's value. -/
def h2 : Mat 100000 128 :=
  layer (aggrK (argAt m c main_arg1) (argAt m c main_arg2) (xs2 m c)) (din m c) (argAt m c main_arg8) (argAt m c main_arg9)
/-- The head of the per-graph sums. -/
def outK : Mat 512 1 :=
  head (poolK (argAt m c main_arg3) (h2 m c)) (argAt m c main_arg10) (argAt m c main_arg11) (argAt m c main_arg12)
    (argAt m c main_arg13)

/-- The stages compose to the network. -/
theorem outK_eq_net : outK m c = net (dout m c) (din m c) (aggrK (argAt m c main_arg1) (argAt m c main_arg2))
    (poolK (argAt m c main_arg3)) (argAt m c main_arg0) (argAt m c main_arg4) (argAt m c main_arg5) (argAt m c main_arg6)
    (argAt m c main_arg7) (argAt m c main_arg8) (argAt m c main_arg9) (argAt m c main_arg10) (argAt m c main_arg11)
    (argAt m c main_arg12) (argAt m c main_arg13) := by
  unfold outK h2 xs2 h1 xs1 h0 xs0 net
  rfl

/-- The columns of the factors' array. -/
theorem factors_col0 : colv (0 : Fin 2) (factors m c) = din m c := by
  unfold factors; rw [colv0_pair, colv_cast]
theorem factors_col1 : colv (1 : Fin 2) (factors m c) = dout m c := by
  unfold factors; rw [colv1_pair, colv_cast]

/-- Region 0 leaves the scaled input features. -/
theorem s1 : (W2 m ρ c (Proc.devRef .tc main_v21) : Mat 100000 128) = xs0 m c := by
  refine ((W2_arr m ρ c 2).trans (ScaleIn.final2 (V1 m ρ) c)).trans ?_
  unfold ScaleIn.sOf xs0
  show scaleRows (W1 m ρ c (Proc.devRef .tc main_arg0) : Mat 100000 128)
      (colv (0 : Fin 1) (W1 m ρ c (Proc.devRef .tc main_v13) : Mat 100000 1)) = _
  rw [w1_arg0, w1_v13, colv_cast]

set_option maxHeartbeats 1000000 in
/-- The stretch after it aggregates them over the edges. -/
theorem s2 : (W3 m ρ c (Proc.devRef .tc main_v31) : Mat 100000 128)
    = aggrK (argAt m c main_arg1) (argAt m c main_arg2) (xs0 m c) := by
  dsimp only [W3, hostOps1]; after_results
  rw [w2_arg1, w2_arg2, s1]; unfold aggrK; rfl

/-- Region 1 leaves the first layer's value scaled for the edges. -/
theorem s3 : (W4 m ρ c (Proc.devRef .tc main_v32_1) : Mat 100000 128) = xs1 m c := by
  refine ((W4_arr m ρ c 5).trans (ConvA.final5 (V3 m ρ) c)).trans ?_
  unfold ConvA.sOf ConvA.hOf xs1 h0
  show scaleRows (layer (W3 m ρ c (Proc.devRef .tc main_v31) : Mat 100000 128)
      (colv (0 : Fin 2) (W3 m ρ c (Proc.devRef .tc main_v15) : Mat 100000 2)) (W3 m ρ c (Proc.devRef .tc main_arg4) : Mat 128 128)
      (rowv (W3 m ρ c (Proc.devRef .tc main_v16) : Mat 1 128)))
      (colv (1 : Fin 2) (W3 m ρ c (Proc.devRef .tc main_v15) : Mat 100000 2)) = _
  rw [s2, w3_v15, w3_arg4, w3_v16, rowv_cast, factors_col0, factors_col1]

set_option maxHeartbeats 1000000 in
theorem s4 : (W5 m ρ c (Proc.devRef .tc main_v42) : Mat 100000 128)
    = aggrK (argAt m c main_arg1) (argAt m c main_arg2) (xs1 m c) := by
  dsimp only [W5, hostOps2]; after_results
  rw [w4_arg1, w4_arg2, s3]; unfold aggrK; rfl

/-- Region 2 leaves the second layer's value scaled for the edges. -/
theorem s5 : (W6 m ρ c (Proc.devRef .tc main_v43_1) : Mat 100000 128) = xs2 m c := by
  refine ((W6_arr m ρ c 5).trans (ConvB.final5 (V5 m ρ) c)).trans ?_
  unfold ConvB.sOf ConvB.hOf xs2 h1
  show scaleRows (layer (W5 m ρ c (Proc.devRef .tc main_v42) : Mat 100000 128)
      (colv (0 : Fin 2) (W5 m ρ c (Proc.devRef .tc main_v15) : Mat 100000 2)) (W5 m ρ c (Proc.devRef .tc main_arg6) : Mat 128 128)
      (rowv (W5 m ρ c (Proc.devRef .tc main_v17) : Mat 1 128)))
      (colv (1 : Fin 2) (W5 m ρ c (Proc.devRef .tc main_v15) : Mat 100000 2)) = _
  rw [s4, w5_v15, w5_arg6, w5_v17, rowv_cast, factors_col0, factors_col1]

set_option maxHeartbeats 1000000 in
theorem s6 : (W7 m ρ c (Proc.devRef .tc main_v53) : Mat 100000 128)
    = aggrK (argAt m c main_arg1) (argAt m c main_arg2) (xs2 m c) := by
  dsimp only [W7, hostOps3]; after_results
  rw [w6_arg1, w6_arg2, s5]; unfold aggrK; rfl

/-- Region 3 leaves the third layer's value. -/
theorem s7 : (W8 m ρ c (Proc.devRef .tc main_v54) : Mat 100000 128) = h2 m c := by
  refine ((W8_arr m ρ c 4).trans (ConvC.final4 (V7 m ρ) c)).trans ?_
  unfold ConvC.hOf h2
  show layer (W7 m ρ c (Proc.devRef .tc main_v53) : Mat 100000 128)
      (colv (0 : Fin 1) (W7 m ρ c (Proc.devRef .tc main_v14) : Mat 100000 1)) (W7 m ρ c (Proc.devRef .tc main_arg8) : Mat 128 128)
      (rowv (W7 m ρ c (Proc.devRef .tc main_v18) : Mat 1 128)) = _
  rw [s6, w7_v14, w7_arg8, w7_v18, rowv_cast, colv_cast]

set_option maxHeartbeats 1000000 in
/-- The last stretch sums the nodes' rows per graph. -/
theorem s8 : (W9 m ρ c (Proc.devRef .tc main_v57) : Mat 512 128) = poolK (argAt m c main_arg3) (h2 m c) := by
  dsimp only [W9, hostOps4]; after_results
  rw [w8_arg3, s7]; unfold poolK; rfl

/-- THE RESULT: the result buffer at the last boundary holds the network of the argument arrays. -/
theorem result_eq : (W10 m ρ c (Proc.devRef .tc main_v58) : Mat 512 1) = outK m c := by
  refine ((W10_arr m ρ c 5).trans (HeadOut.final5 (V9 m ρ) c)).trans ?_
  unfold HeadOut.outOf outK
  show head (W9 m ρ c (Proc.devRef .tc main_v57) : Mat 512 128) (W9 m ρ c (Proc.devRef .tc main_arg10) : Mat 128 128)
      (rowv (W9 m ρ c (Proc.devRef .tc main_v19) : Mat 1 128)) (W9 m ρ c (Proc.devRef .tc main_arg12) : Mat 128 1)
      (rowv (W9 m ρ c (Proc.devRef .tc main_v20) : Mat 1 1)) = _
  rw [s8, w9_arg10, w9_v19, w9_arg12, w9_v20, rowv_cast, rowv_cast]

end Cert.KernelIdeal.Chain

end
-- ==== Proof.RefNet.lean ====
/-
  The reference program's result is the network of the specification.

  The reference spreads a vector of degree factors over the rows (one number per row, made a column and then
  repeated along it) and a bias over the columns, where the specification reads the vector at the row or at
  the column; its matrix products are the plain sums over the contracted coordinate; its rectifier compares
  with the word of 0.0.  The degree factors, the aggregation over the edges and the readout per graph are
  named here as the reference spells them and not opened.
-/
import proofs.«177687_j66846870995328_1_alg».proof.Proof.Gen.ReferenceIdeal.Run
import proofs.«177687_j66846870995328_1_alg».proof.Proof.NetSpec
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen Cert.ReferenceIdeal.Value Cert.GraphNet Cert.Lib.PlainDot
open Idealize.ShloMosaic Idealize.ShloMosaic.ValueIdx Idealize.ShloMosaic.TcCoe Idealize.SL.Sem

/-! ## The shared array operations, as the reference spells them -/

/-- The degree factor of every node from one end of the edges: 1/sqrt of the larger of the count and one. -/
def degF (idx : IVec S1600000 32) : FVec Ideal S100000 .f32 :=
  Host.rsqrt (maximumf (Host.scatterAdd scatter_S100000_S1600000x1_S1600000_n_0_0_1
      (broadcastInDim S100000 ![] bcast_S_S100000 (constant S_ .f32 0x00000000#32))
      (broadcastInDim S1600000x1 ![0] bcast_S1600000_S1600000x1_0 idx)
      (broadcastInDim S1600000 ![] bcast_S_S1600000 (constant S_ .f32 0x3F800000#32)))
    (broadcastInDim S100000 ![] bcast_S_S100000 (constant S_ .f32 0x3F800000#32)))

/-- For every node, the sum over the edges into it of the source node's row. -/
def aggrF (src dst : IVec S1600000 32) (xs : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 xs
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- For every graph, the sum of its nodes' rows. -/
def poolF (n2g : IVec S100000 32) (h : FVec Ideal S100000x128 .f32) : FVec Ideal S512x128 .f32 :=
  Host.scatterAdd scatter_S512x128_S100000x1_S100000x128_1_0_0_1
    (broadcastInDim S512x128 ![] bcast_S_S512x128 (constant S_ .f32 0x00000000#32))
    (broadcastInDim S100000x1 ![0] bcast_S100000_S100000x1_0 n2g) h

/-! ## The dense operations, read at an index -/

/-- A vector spread over the rows, read at an index: the vector at the row. -/
theorem spread_rows {n c : Nat} (d : Vct n) (h1 : (⟨1, ![n]⟩ : Shape).BroadcastsInDim ⟨2, ![n, 1]⟩ ![0])
    (h2 : (⟨2, ![n, 1]⟩ : Shape).BroadcastsInDim ⟨2, ![n, c]⟩ ![0, 1]) (i : (⟨2, ![n, c]⟩ : Shape).Idx) :
    broadcastInDim ⟨2, ![n, c]⟩ ![0, 1] h2 (broadcastInDim ⟨2, ![n, 1]⟩ ![0] h1 d) i = d (ix1 (rowOf i)) := by
  obtain ⟨a, k, rfl⟩ : ∃ (a : Fin n) (k : Fin c), i = ix2 a k := ⟨i 0, i 1, eq_ix2 i⟩
  rw [broadcastInDim_apply _ h2 _ (ix2 a k) (ix2 a (0 : Fin 1)) (fun ax => by
        match ax with
        | ⟨0, _⟩ => show a.val = if n = 1 then 0 else a.val; split; (have := a.isLt; omega); rfl
        | ⟨1, _⟩ => rfl),
      broadcastInDim_apply _ h1 _ (ix2 a (0 : Fin 1)) (ix1 a) (fun ax => by
        match ax with
        | ⟨0, _⟩ => show a.val = if n = 1 then 0 else a.val; split; (have := a.isLt; omega); rfl)]
  rfl

/-- A vector spread over the columns, read at an index: the vector at the column. -/
theorem spread_cols {n c : Nat} (b : Vct c) (h1 : (⟨1, ![c]⟩ : Shape).BroadcastsInDim ⟨2, ![1, c]⟩ ![1])
    (h2 : (⟨2, ![1, c]⟩ : Shape).BroadcastsInDim ⟨2, ![n, c]⟩ ![0, 1]) (i : (⟨2, ![n, c]⟩ : Shape).Idx) :
    broadcastInDim ⟨2, ![n, c]⟩ ![0, 1] h2 (broadcastInDim ⟨2, ![1, c]⟩ ![1] h1 b) i = b (ix1 (colOf i)) := by
  obtain ⟨a, k, rfl⟩ : ∃ (a : Fin n) (k : Fin c), i = ix2 a k := ⟨i 0, i 1, eq_ix2 i⟩
  rw [broadcastInDim_apply _ h2 _ (ix2 a k) (ix2 (0 : Fin 1) k) (fun ax => by
        match ax with
        | ⟨0, _⟩ => rfl
        | ⟨1, _⟩ => show k.val = if c = 1 then 0 else k.val; split; (have := k.isLt; omega); rfl),
      broadcastInDim_apply _ h1 _ (ix2 (0 : Fin 1) k) (ix1 k) (fun ax => by
        match ax with
        | ⟨0, _⟩ => show k.val = if c = 1 then 0 else k.val; split; (have := k.isLt; omega); rfl)]
  rfl

/-- Rows scaled by a spread vector. -/
theorem scale_ref (A : FVec Ideal S100000x128 .f32) (d : FVec Ideal S100000 .f32) :
    (mulf A (broadcastInDim S100000x128 ![0, 1] bcast_S100000x1_S100000x128_0_1
      (broadcastInDim S100000x1 ![0] bcast_S100000_S100000x1_0 d)) : Mat 100000 128) = scaleRows A d := by
  funext i
  rw [mulf_apply, spread_rows]; rfl

/-- The product, the bias and the rectifier of one layer. -/
theorem dense_ref (X : FVec Ideal S100000x128 .f32) (W : FVec Ideal S128x128 .f32) (b : FVec Ideal S128 .f32) :
    (maximumf (addf (Host.dotGeneral dot_S100000x128_S128x128_S100000x128_1_0_0_1_n_n none X W)
        (broadcastInDim S100000x128 ![0, 1] bcast_S1x128_S100000x128_0_1 (broadcastInDim S1x128 ![1] bcast_S128_S1x128_1 b)))
      (broadcastInDim S100000x128 ![] bcast_S_S100000x128 (constant S_ .f32 0x00000000#32)) : Mat 100000 128)
      = rect (affine X W b) := by
  funext i
  rw [maximumf_apply, addf_apply, spread_cols]
  refine congrArg₂ max (congrArg₂ (· + ·) ?_ rfl) rfl
  exact dotGeneral_apply dot_S100000x128_S128x128_S100000x128_1_0_0_1_n_n rfl none .single X W i

/-- The two-layer head. -/
theorem head_ref (g : FVec Ideal S512x128 .f32) (W1 : FVec Ideal S128x128 .f32) (b1 : FVec Ideal S128 .f32)
    (W2 : FVec Ideal S128x1 .f32) (b2 : FVec Ideal S1 .f32) :
    (addf (Host.dotGeneral dot_S512x128_S128x1_S512x1_1_0_0_1_n_n none
        (maximumf (addf (Host.dotGeneral dot_S512x128_S128x128_S512x128_1_0_0_1_n_n none g W1)
            (broadcastInDim S512x128 ![0, 1] bcast_S1x128_S512x128_0_1 (broadcastInDim S1x128 ![1] bcast_S128_S1x128_1 b1)))
          (broadcastInDim S512x128 ![] bcast_S_S512x128 (constant S_ .f32 0x00000000#32))) W2)
      (broadcastInDim S512x1 ![0, 1] bcast_S1x1_S512x1_0_1 (broadcastInDim S1x1 ![1] bcast_S1_S1x1_1 b2)) : Mat 512 1)
      = head g W1 b1 W2 b2 := by
  have inner : (maximumf (addf (Host.dotGeneral dot_S512x128_S128x128_S512x128_1_0_0_1_n_n none g W1)
        (broadcastInDim S512x128 ![0, 1] bcast_S1x128_S512x128_0_1 (broadcastInDim S1x128 ![1] bcast_S128_S1x128_1 b1)))
      (broadcastInDim S512x128 ![] bcast_S_S512x128 (constant S_ .f32 0x00000000#32)) : Mat 512 128)
      = rect (affine g W1 b1) := by
    funext i
    rw [maximumf_apply, addf_apply, spread_cols]
    refine congrArg₂ max (congrArg₂ (· + ·) ?_ rfl) rfl
    exact dotGeneral_apply dot_S512x128_S128x128_S512x128_1_0_0_1_n_n rfl none .single g W1 i
  rw [inner]
  funext i
  rw [addf_apply, spread_cols]
  refine congrArg₂ (· + ·) ?_ rfl
  exact dotGeneral_apply dot_S512x128_S128x1_S512x1_1_0_0_1_n_n rfl none .single _ W2 i

/-! ## The result -/

set_option maxRecDepth 200000 in
/-- The reference's result is the network of its argument arrays. -/
theorem result_eq (m : (ℓ : Loc nD τ sig) → Buf (Elt Ideal) ℓ) (c : Dev nD) :
    (res_out0 (F := Ideal) m c : Mat 512 1)
      = net (degF (m ((c.tc : Thread nD τ).loc main_arg1))) (degF (m ((c.tc : Thread nD τ).loc main_arg2)))
          (aggrF (m ((c.tc : Thread nD τ).loc main_arg1)) (m ((c.tc : Thread nD τ).loc main_arg2)))
          (poolF (m ((c.tc : Thread nD τ).loc main_arg3)))
          (m ((c.tc : Thread nD τ).loc main_arg0))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) := by
  show (res_main_v87 (F := Ideal) m c : Mat 512 1) = _
  unfold res_main_v87
  rw [head_ref, dense_ref, dense_ref, dense_ref, scale_ref, scale_ref, scale_ref, scale_ref, scale_ref, scale_ref]
  delta net layer degF aggrF poolF
  beta_reduce
  rfl

end Cert.ReferenceIdeal.RefValue

end
-- ==== Proof.lean ====
/-
  A three-layer graph convolution with a sum readout and a two-layer head: the kernel program against its
  plain reference, on the extended reals.

  Both programs compute, from the edges' two index arrays, the vectors of out-degree and in-degree factors
  1/sqrt(max(count, 1)); then three times: scale the features' rows by the out-degree factors, sum along every
  edge the source node's row into the target node, scale the rows by the in-degree factors, multiply by a weight
  matrix, add a bias and rectify; then sum the nodes' rows per graph and apply two affine maps with a rectifier
  between them.  The kernel program does the dense steps in five regions that walk blocks of rows (rounding the
  matrix products' operands to a narrower format, which is the identity on the extended reals) and leaves the
  degree counts, the sums along the edges and the sums per graph to the same array operations the reference
  uses.  So both results are ONE function of the argument arrays — `Cert.GraphNet.net` over those shared
  operations — and no property of the inputs is used: a matrix product into a zero accumulator and a plain
  contraction are the same sum, whatever the entries.

  The kernel program's value is read off its run with every buffer's final contents kept (KeptRun), boundary by
  boundary (Chain, over one module per region); the reference's off its run's composed term (RefNet).  The three
  frame claims are the programs' runs; the kernel's idealization rewrote nothing.
-/
import proofs.«177687_j66846870995328_1_alg».proof.Defs
import proofs.«177687_j66846870995328_1_alg».proof.Proof.Gen.Kernel
import proofs.«177687_j66846870995328_1_alg».proof.Proof.Gen.Kernel.Skeleton
import proofs.«177687_j66846870995328_1_alg».proof.Proof.Gen.Kernel.Launch
import proofs.«177687_j66846870995328_1_alg».proof.Proof.Gen.Kernel.Points
import proofs.«177687_j66846870995328_1_alg».proof.Proof.Gen.Kernel.Frame
import proofs.«177687_j66846870995328_1_alg».proof.Proof.Gen.KernelIdeal
import proofs.«177687_j66846870995328_1_alg».proof.Proof.Gen.KernelIdeal.Skeleton
import proofs.«177687_j66846870995328_1_alg».proof.Proof.Gen.KernelIdeal.Launch
import proofs.«177687_j66846870995328_1_alg».proof.Proof.Gen.KernelIdeal.Points
import proofs.«177687_j66846870995328_1_alg».proof.Proof.Gen.KernelIdeal.Frame
import proofs.«177687_j66846870995328_1_alg».proof.Proof.Gen.ReferenceIdeal
import proofs.«177687_j66846870995328_1_alg».proof.Proof.Gen.Pre_finite_inputs
import proofs.«177687_j66846870995328_1_alg».proof.Proof.Gen.ReferenceIdeal.Run
import proofs.«177687_j66846870995328_1_alg».proof.Proof.KeptRun
import proofs.«177687_j66846870995328_1_alg».proof.Proof.Chain
import proofs.«177687_j66846870995328_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

/-! ## The shared array operations are spelt alike in the two programs -/

theorem deg_same : Cert.ReferenceIdeal.RefValue.degF = Cert.KernelIdeal.Chain.degK := rfl
theorem aggr_same : Cert.ReferenceIdeal.RefValue.aggrF = Cert.KernelIdeal.Chain.aggrK := rfl
theorem pool_same : Cert.ReferenceIdeal.RefValue.poolF = Cert.KernelIdeal.Chain.poolK := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the argument arrays in their result, the arguments unchanged. -/
theorem algebraic : Cert.algebraic_KernelIdeal_ReferenceIdeal := by
  intro m ρ m' ρ' _ hagree
  refine ⟨fun c => Cert.KernelIdeal.Chain.outK m c, ?_, ?_⟩
  · refine (θ_run Cert.KernelIdeal.defs _ _).mono (fun r h c => ?_) (Cert.KernelIdeal.Kept.run (F := Ideal) m ρ)
    exact ⟨(h c _ (Cert.KernelIdeal.Gen.mem_uc Cert.KernelIdeal.main_v58 (by decide))).trans (Cert.KernelIdeal.Chain.result_eq m ρ c),
      (h c _ (Cert.KernelIdeal.Gen.mem_uc Cert.KernelIdeal.main_arg0 (by decide))).trans (Cert.KernelIdeal.Gen.W10_main_arg0 m ρ c),
      (h c _ (Cert.KernelIdeal.Gen.mem_uc Cert.KernelIdeal.main_arg1 (by decide))).trans (Cert.KernelIdeal.Gen.W10_main_arg1 m ρ c),
      (h c _ (Cert.KernelIdeal.Gen.mem_uc Cert.KernelIdeal.main_arg2 (by decide))).trans (Cert.KernelIdeal.Gen.W10_main_arg2 m ρ c),
      (h c _ (Cert.KernelIdeal.Gen.mem_uc Cert.KernelIdeal.main_arg3 (by decide))).trans (Cert.KernelIdeal.Gen.W10_main_arg3 m ρ c),
      (h c _ (Cert.KernelIdeal.Gen.mem_uc Cert.KernelIdeal.main_arg4 (by decide))).trans (Cert.KernelIdeal.Gen.W10_main_arg4 m ρ c),
      (h c _ (Cert.KernelIdeal.Gen.mem_uc Cert.KernelIdeal.main_arg5 (by decide))).trans (Cert.KernelIdeal.Gen.W10_main_arg5 m ρ c),
      (h c _ (Cert.KernelIdeal.Gen.mem_uc Cert.KernelIdeal.main_arg6 (by decide))).trans (Cert.KernelIdeal.Gen.W10_main_arg6 m ρ c),
      (h c _ (Cert.KernelIdeal.Gen.mem_uc Cert.KernelIdeal.main_arg7 (by decide))).trans (Cert.KernelIdeal.Gen.W10_main_arg7 m ρ c),
      (h c _ (Cert.KernelIdeal.Gen.mem_uc Cert.KernelIdeal.main_arg8 (by decide))).trans (Cert.KernelIdeal.Gen.W10_main_arg8 m ρ c),
      (h c _ (Cert.KernelIdeal.Gen.mem_uc Cert.KernelIdeal.main_arg9 (by decide))).trans (Cert.KernelIdeal.Gen.W10_main_arg9 m ρ c),
      (h c _ (Cert.KernelIdeal.Gen.mem_uc Cert.KernelIdeal.main_arg10 (by decide))).trans (Cert.KernelIdeal.Gen.W10_main_arg10 m ρ c),
      (h c _ (Cert.KernelIdeal.Gen.mem_uc Cert.KernelIdeal.main_arg11 (by decide))).trans (Cert.KernelIdeal.Gen.W10_main_arg11 m ρ c),
      (h c _ (Cert.KernelIdeal.Gen.mem_uc Cert.KernelIdeal.main_arg12 (by decide))).trans (Cert.KernelIdeal.Gen.W10_main_arg12 m ρ c),
      (h c _ (Cert.KernelIdeal.Gen.mem_uc Cert.KernelIdeal.main_arg13 (by decide))).trans (Cert.KernelIdeal.Gen.W10_main_arg13 m ρ c)⟩
  · refine (θ_run Cert.ReferenceIdeal.defs _ _).mono (fun r h c => ⟨(h c).1.trans ?_, (h c).2⟩)
      (Cert.ReferenceIdeal.Value.run (F := Ideal) m' ρ')
    refine (Cert.ReferenceIdeal.RefValue.result_eq m' c).trans ?_
    obtain ⟨e0, e1, e2, e3, e4, e5, e6, e7, e8, e9, e10, e11, e12, e13⟩ := hagree c
    rw [e0, e1, e2, e3, e4, e5, e6, e7, e8, e9, e10, e11, e12, e13, deg_same, aggr_same, pool_same]
    exact (Cert.KernelIdeal.Chain.outK_eq_net m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
